-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000 : Shape := ⟨1, ![800000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000 : S_.BroadcastsInDim S800000 (![] : Fin 0 → Fin S800000.rank)
  reducesTo_S800000_S_d0 : S800000.ReducesTo [0] S_

variable [Facts]

def fn {F : FTy → Type} [FloatOps F] (main_arg0 : FVec F S50000x64 .f32) (main_arg1 : IVec S2x800000 32) (main_arg2 : FVec F S800000 .f32) (main_arg3 : IVec S2x800000 32) (main_arg4 : FVec F S800000 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S800000 .f32 := Host.absf main_arg4
  let main_cst_2 : FVec F S_ .f32 := constant S_ .f32 0x7F800000#32
  let main_v10 : FVec F S800000 .f32 := broadcastInDim S800000 ![] bcast_S_S800000 main_cst_2
  let main_v11 : IVec S800000 1 := cmpf .olt main_v9 main_v10
  let main_c_3 : IVec S_ 1 := constantI S_ 1 1#1
  let main_v12 : IVec S_ 1 := (fun x v => Host.reduce IntOp.andi x v reducesTo_S800000_S_d0 h_S_) main_v11 main_c_3
  let main_v13 : IVec S_ 1 := andi main_v8 main_v12
  main_v13
-- ==== Kernel.lean ====
abbrev S50000x64 : Shape := ⟨2, ![50000, 64]⟩
abbrev S2x800000 : Shape := ⟨2, ![2, 800000]⟩
abbrev S800000 : Shape := ⟨1, ![800000]⟩
abbrev S1x800000 : Shape := ⟨2, ![1, 800000]⟩
abbrev S_ : Shape := ⟨0, ![]⟩
abbrev S800000x1 : Shape := ⟨2, ![800000, 1]⟩
abbrev S800000x64 : Shape := ⟨2, ![800000, 64]⟩
abbrev S8000x64 : Shape := ⟨2, ![8000, 64]⟩
abbrev S8000x1 : Shape := ⟨2, ![8000, 1]⟩
abbrev S8000 : Shape := ⟨1, ![8000]⟩

abbrev nBuf : Space → Nat
  | .hbm => 76
  | .vmem => 20
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000, .f32⟩
  | .hbm, ⟨3, _⟩ => ⟨S2x800000, .i32⟩
  | .hbm, ⟨4, _⟩ => ⟨S800000, .f32⟩
  | .hbm, ⟨5, _⟩ => ⟨S1x800000, .i32⟩
  | .hbm, ⟨6, _⟩ => ⟨S800000, .i32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x64, .f32⟩
  | .hbm, ⟨16, _⟩ => ⟨S1x800000, .i32⟩
  | .hbm, ⟨17, _⟩ => ⟨S800000, .i32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x64, .f32⟩
  | .hbm, ⟨27, _⟩ => ⟨S800000x1, .f32⟩
  | .hbm, ⟨28, _⟩ => ⟨S800000x64, .f32⟩
  | .hbm, ⟨29, _⟩ => ⟨S1x800000, .i32⟩
  | .hbm, ⟨30, _⟩ => ⟨S800000, .i32⟩
  | .hbm, ⟨31, _⟩ => ⟨S_, .f32⟩
  | .hbm, ⟨32, _⟩ => ⟨S50000x64, .f32⟩
  | .hbm, ⟨33, _⟩ => ⟨S800000x1, .i32⟩
  | .hbm, ⟨34, _⟩ => ⟨S50000x64, .f32⟩
  | .hbm, ⟨35, _⟩ => ⟨S1x800000, .i32⟩
  | .hbm, ⟨36, _⟩ => ⟨S800000, .i32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x64, .f32⟩
  | .hbm, ⟨46, _⟩ => ⟨S1x800000, .i32⟩
  | .hbm, ⟨47, _⟩ => ⟨S800000, .i32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x64, .f32⟩
  | .hbm, ⟨57, _⟩ => ⟨S1x800000, .i32⟩
  | .hbm, ⟨58, _⟩ => ⟨S800000, .i32⟩
  | .hbm, ⟨59, _⟩ => ⟨S_, .i32⟩
  | .hbm, ⟨60, _⟩ => ⟨S800000, .i32⟩
  | .hbm, ⟨61, _⟩ => ⟨S800000, .i1⟩
  | .hbm, ⟨62, _⟩ => ⟨S_, .i32⟩
  | .hbm, ⟨63, _⟩ => ⟨S800000, .i32⟩
  | .hbm, ⟨64, _⟩ => ⟨S800000, .i32⟩
  | .hbm, ⟨65, _⟩ => ⟨S800000, .i32⟩
  | .hbm, ⟨66, _⟩ => ⟨S800000x1, .i32⟩
  | .hbm, ⟨67, _⟩ => ⟨S800000x64, .f32⟩
  | .hbm, ⟨68, _⟩ => ⟨S800000x1, .f32⟩
  | .hbm, ⟨69, _⟩ => ⟨S800000x64, .f32⟩
  | .hbm, ⟨70, _⟩ => ⟨S1x800000, .i32⟩
  | .hbm, ⟨71, _⟩ => ⟨S800000, .i32⟩
  | .hbm, ⟨72, _⟩ => ⟨S_, .f32⟩
  | .hbm, ⟨73, _⟩ => ⟨S50000x64, .f32⟩
  | .hbm, ⟨74, _⟩ => ⟨S800000x1, .i32⟩
  | .hbm, ⟨75, _⟩ => ⟨S50000x64, .f32⟩
  | .local _ .vmem, ⟨0, _⟩ => ⟨S8000x64, .f32⟩
  | .local _ .vmem, ⟨1, _⟩ => ⟨S8000x64, .f32⟩
  | .local _ .vmem, ⟨2, _⟩ => ⟨S8000x64, .f32⟩
  | .local _ .vmem, ⟨3, _⟩ => ⟨S8000x64, .f32⟩
  | .local _ .vmem, ⟨4, _⟩ => ⟨S8000x64, .f32⟩
  | .local _ .vmem, ⟨5, _⟩ => ⟨S8000x64, .f32⟩
  | .local _ .vmem, ⟨6, _⟩ => ⟨S8000x1, .f32⟩
  | .local _ .vmem, ⟨7, _⟩ => ⟨S8000x1, .f32⟩
  | .local _ .vmem, ⟨8, _⟩ => ⟨S8000x64, .f32⟩
  | .local _ .vmem, ⟨9, _⟩ => ⟨S8000x64, .f32⟩
  | .local _ .vmem, ⟨10, _⟩ => ⟨S8000x64, .f32⟩
  | .local _ .vmem, ⟨11, _⟩ => ⟨S8000x64, .f32⟩
  | .local _ .vmem, ⟨12, _⟩ => ⟨S8000x64, .f32⟩
  | .local _ .vmem, ⟨13, _⟩ => ⟨S8000x64, .f32⟩
  | .local _ .vmem, ⟨14, _⟩ => ⟨S8000x64, .f32⟩
  | .local _ .vmem, ⟨15, _⟩ => ⟨S8000x64, .f32⟩
  | .local _ .vmem, ⟨16, _⟩ => ⟨S8000x1, .f32⟩
  | .local _ .vmem, ⟨17, _⟩ => ⟨S8000x1, .f32⟩
  | .local _ .vmem, ⟨18, _⟩ => ⟨S8000x64, .f32⟩
  | .local _ .vmem, ⟨19, _⟩ => ⟨S8000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_3 : Ref sig .tc := ⟨.hbm, 37, rfl⟩
abbrev main_v27 : Ref sig .tc := ⟨.hbm, 38, rfl⟩
abbrev main_v28 : Ref sig .tc := ⟨.hbm, 39, rfl⟩
abbrev main_c_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c_5 : Ref sig .tc := ⟨.hbm, 48, rfl⟩
abbrev main_v36 : Ref sig .tc := ⟨.hbm, 49, rfl⟩
abbrev main_v37 : Ref sig .tc := ⟨.hbm, 50, rfl⟩
abbrev main_c_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_c_7 : Ref sig .tc := ⟨.hbm, 59, rfl⟩
abbrev main_v45 : Ref sig .tc := ⟨.hbm, 60, rfl⟩
abbrev main_v46 : Ref sig .tc := ⟨.hbm, 61, rfl⟩
abbrev main_c_8 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_9 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S8000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  slices_S2x800000_S1x800000_1_0 : S2x800000.Slices ![1, 0] S1x800000
  shapeCasts_S800000_S800000x1 : S800000.ShapeCasts S800000x1
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  reduces_S8000x64_S8000 : S8000x64.Reduces [1] S8000
  shapeCasts_S8000_S8000x1 : S8000.ShapeCasts S8000x1
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x64 : S8000x1.Broadcasts S8000x64
  bcast_S_S50000x64 : S_.BroadcastsInDim S50000x64 (![] : Fin 0 → Fin S50000x64.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S800000x64.size a
  hwx0_0 : ∀ i : grid0.Coords, EltTy.bits .f32 = 32 ∨ (Rect.block (s := S800000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S800000x64.size a
  hwx0_1 : ∀ i : grid0.Coords, EltTy.bits .f32 = 32 ∨ (Rect.block (s := S800000x64) S8000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x64.size a ≤ S800000x64.size a
  hwx0_2 : ∀ i : grid0.Coords, EltTy.bits .f32 = 32 ∨ (Rect.block (s := S800000x64) S8000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x1.size a ≤ S800000x1.size a
  hwx0_3 : ∀ i : grid0.Coords, EltTy.bits .f32 = 32 ∨ (Rect.block (s := S800000x1) S8000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8000x64.size a ≤ S800000x64.size a
  hwx0_4 : ∀ i : grid0.Coords, EltTy.bits .f32 = 32 ∨ (Rect.block (s := S800000x64) S8000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x64.size a ≤ S800000x64.size a
  hwx1_0 : ∀ i : grid1.Coords, EltTy.bits .f32 = 32 ∨ (Rect.block (s := S800000x64) S8000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x64.size a ≤ S800000x64.size a
  hwx1_1 : ∀ i : grid1.Coords, EltTy.bits .f32 = 32 ∨ (Rect.block (s := S800000x64) S8000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x64.size a ≤ S800000x64.size a
  hwx1_2 : ∀ i : grid1.Coords, EltTy.bits .f32 = 32 ∨ (Rect.block (s := S800000x64) S8000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x1.size a ≤ S800000x1.size a
  hwx1_3 : ∀ i : grid1.Coords, EltTy.bits .f32 = 32 ∨ (Rect.block (s := S800000x1) S8000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8000x64.size a ≤ S800000x64.size a
  hwx1_4 : ∀ i : grid1.Coords, EltTy.bits .f32 = 32 ∨ (Rect.block (s := S800000x64) S8000x64.size (cc1_transform_4 i) (hinb1_4 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_v8) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S8000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S8000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v19) S8000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v33) S8000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S8000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v51) S8000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v52) S8000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v53) S8000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000 : Shape := ⟨1, ![800000]⟩
abbrev S1x800000 : Shape := ⟨2, ![1, 800000]⟩
abbrev S_ : Shape := ⟨0, ![]⟩
abbrev S800000x1 : Shape := ⟨2, ![800000, 1]⟩
abbrev S800000x64 : Shape := ⟨2, ![800000, 64]⟩

abbrev nBuf : Space → Nat
  | .hbm => 169
  | .vmem => 0
  | .smem => 0
  | _ => 0

abbrev hbmTy0_0 (i : Nat) : BufTy := match i % 128 with
  | 0 => ⟨S50000x64, .f32⟩
  | 1 => ⟨S2x800000, .i32⟩
  | 2 => ⟨S800000, .f32⟩
  | 3 => ⟨S2x800000, .i32⟩
  | 4 => ⟨S800000, .f32⟩
  | 5 => ⟨S1x800000, .i32⟩
  | 6 => ⟨S800000, .i32⟩
  | 7 => ⟨S_, .i32⟩
  | 8 => ⟨S800000, .i32⟩
  | 9 => ⟨S800000, .i1⟩
  | 10 => ⟨S_, .i32⟩
  | 11 => ⟨S800000, .i32⟩
  | 12 => ⟨S800000, .i32⟩
  | 13 => ⟨S800000, .i32⟩
  | 14 => ⟨S800000x1, .i32⟩
  | 15 => ⟨S800000x64, .f32⟩
  | 16 => ⟨S1x800000, .i32⟩
  | 17 => ⟨S800000, .i32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S800000x64, .f32⟩
  | 27 => ⟨S800000x64, .f32⟩
  | 28 => ⟨S_, .f32⟩
  | 29 => ⟨S800000, .f32⟩
  | 30 => ⟨S800000x64, .f32⟩
  | 31 => ⟨S_, .f32⟩
  | 32 => ⟨S800000, .f32⟩
  | 33 => ⟨S800000, .f32⟩
  | 34 => ⟨S_, .f32⟩
  | 35 => ⟨S800000, .f32⟩
  | 36 => ⟨S800000, .f32⟩
  | 37 => ⟨S800000x64, .f32⟩
  | 38 => ⟨S_, .f32⟩
  | 39 => ⟨S800000, .f32⟩
  | 40 => ⟨S800000, .f32⟩
  | 41 => ⟨S_, .f32⟩
  | 42 => ⟨S800000, .f32⟩
  | 43 => ⟨S800000, .f32⟩
  | 44 => ⟨S800000, .f32⟩
  | 45 => ⟨S800000, .f32⟩
  | 46 => ⟨S_, .f32⟩
  | 47 => ⟨S800000, .f32⟩
  | 48 => ⟨S800000, .f32⟩
  | 49 => ⟨S_, .f32⟩
  | 50 => ⟨S800000, .f32⟩
  | 51 => ⟨S800000, .f32⟩
  | 52 => ⟨S_, .f32⟩
  | 53 => ⟨S_, .f32⟩
  | 54 => ⟨S_, .f32⟩
  | 55 => ⟨S800000, .f32⟩
  | 56 => ⟨S800000, .f32⟩
  | 57 => ⟨S_, .f32⟩
  | 58 => ⟨S800000, .f32⟩
  | 59 => ⟨S800000, .f32⟩
  | 60 => ⟨S_, .f32⟩
  | 61 => ⟨S800000, .f32⟩
  | 62 => ⟨S800000, .f32⟩
  | 63 => ⟨S_, .f32⟩
  | 64 => ⟨S800000, .f32⟩
  | 65 => ⟨S800000, .f32⟩
  | 66 => ⟨S800000, .f32⟩
  | 67 => ⟨S1x800000, .i32⟩
  | 68 => ⟨S800000, .i32⟩
  | 69 => ⟨S_, .i32⟩
  | 70 => ⟨S800000, .i32⟩
  | 71 => ⟨S800000, .i1⟩
  | 72 => ⟨S_, .i32⟩
  | 73 => ⟨S800000, .i32⟩
  | 74 => ⟨S800000, .i32⟩
  | 75 => ⟨S800000, .i32⟩
  | 76 => ⟨S800000x1, .i32⟩
  | 77 => ⟨S800000x64, .f32⟩
  | 78 => ⟨S1x800000, .i32⟩
  | 79 => ⟨S800000, .i32⟩
  | 80 => ⟨S_, .i32⟩
  | 81 => ⟨S800000, .i32⟩
  | 82 => ⟨S800000, .i1⟩
  | 83 => ⟨S_, .i32⟩
  | 84 => ⟨S800000, .i32⟩
  | 85 => ⟨S800000, .i32⟩
  | 86 => ⟨S800000, .i32⟩
  | 87 => ⟨S800000x1, .i32⟩
  | 88 => ⟨S800000x64, .f32⟩
  | 89 => ⟨S800000x64, .f32⟩
  | 90 => ⟨S_, .f32⟩
  | 91 => ⟨S800000, .f32⟩
  | 92 => ⟨S800000x64, .f32⟩
  | 93 => ⟨S_, .f32⟩
  | 94 => ⟨S800000, .f32⟩
  | 95 => ⟨S800000, .f32⟩
  | 96 => ⟨S_, .f32⟩
  | 97 => ⟨S800000, .f32⟩
  | 98 => ⟨S800000, .f32⟩
  | 99 => ⟨S800000x64, .f32⟩
  | 100 => ⟨S_, .f32⟩
  | 101 => ⟨S800000, .f32⟩
  | 102 => ⟨S800000, .f32⟩
  | 103 => ⟨S_, .f32⟩
  | 104 => ⟨S800000, .f32⟩
  | 105 => ⟨S800000, .f32⟩
  | 106 => ⟨S800000, .f32⟩
  | 107 => ⟨S800000, .f32⟩
  | 108 => ⟨S_, .f32⟩
  | 109 => ⟨S800000, .f32⟩
  | 110 => ⟨S800000, .f32⟩
  | 111 => ⟨S_, .f32⟩
  | 112 => ⟨S800000, .f32⟩
  | 113 => ⟨S800000, .f32⟩
  | 114 => ⟨S_, .f32⟩
  | 115 => ⟨S_, .f32⟩
  | 116 => ⟨S_, .f32⟩
  | 117 => ⟨S800000, .f32⟩
  | 118 => ⟨S800000, .f32⟩
  | 119 => ⟨S_, .f32⟩
  | 120 => ⟨S800000, .f32⟩
  | 121 => ⟨S800000, .f32⟩
  | 122 => ⟨S_, .f32⟩
  | 123 => ⟨S800000, .f32⟩
  | 124 => ⟨S800000, .f32⟩
  | 125 => ⟨S_, .f32⟩
  | 126 => ⟨S800000, .f32⟩
  | 127 => ⟨S800000, .f32⟩
  | _ => ⟨S50000x64, .f32⟩

abbrev hbmTy0_1 (i : Nat) : BufTy := match i % 128 with
  | 0 => ⟨S800000, .f32⟩
  | 1 => ⟨S800000x1, .f32⟩
  | 2 => ⟨S1x800000, .i32⟩
  | 3 => ⟨S800000, .i32⟩
  | 4 => ⟨S_, .i32⟩
  | 5 => ⟨S800000, .i32⟩
  | 6 => ⟨S800000, .i1⟩
  | 7 => ⟨S_, .i32⟩
  | 8 => ⟨S800000, .i32⟩
  | 9 => ⟨S800000, .i32⟩
  | 10 => ⟨S800000, .i32⟩
  | 11 => ⟨S800000x1, .i32⟩
  | 12 => ⟨S800000x64, .f32⟩
  | 13 => ⟨S800000x64, .f32⟩
  | 14 => ⟨S800000x64, .f32⟩
  | 15 => ⟨S1x800000, .i32⟩
  | 16 => ⟨S800000, .i32⟩
  | 17 => ⟨S_, .f32⟩
  | 18 => ⟨S50000x64, .f32⟩
  | 19 => ⟨S800000x1, .i32⟩
  | 20 => ⟨S50000x64, .f32⟩
  | 21 => ⟨S800000x1, .f32⟩
  | 22 => ⟨S1x800000, .i32⟩
  | 23 => ⟨S800000, .i32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x64, .f32⟩
  | 33 => ⟨S800000x64, .f32⟩
  | 34 => ⟨S800000x64, .f32⟩
  | 35 => ⟨S1x800000, .i32⟩
  | 36 => ⟨S800000, .i32⟩
  | 37 => ⟨S_, .f32⟩
  | 38 => ⟨S50000x64, .f32⟩
  | 39 => ⟨S800000x1, .i32⟩
  | 40 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_v35 : Ref sig .tc := ⟨.hbm, 51, rfl⟩
abbrev main_cst_9 : Ref sig .tc := ⟨.hbm, 52, rfl⟩
abbrev main_cst_10 : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_v36 : Ref sig .tc := ⟨.hbm, 59, rfl⟩
abbrev main_cst_11 : Ref sig .tc := ⟨.hbm, 60, rfl⟩
abbrev main_v37 : Ref sig .tc := ⟨.hbm, 61, rfl⟩
abbrev main_v38 : Ref sig .tc := ⟨.hbm, 62, rfl⟩
abbrev main_cst_12 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_c_13 : Ref sig .tc := ⟨.hbm, 69, rfl⟩
abbrev main_v44 : Ref sig .tc := ⟨.hbm, 70, rfl⟩
abbrev main_v45 : Ref sig .tc := ⟨.hbm, 71, rfl⟩
abbrev main_c_14 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_c_15 : Ref sig .tc := ⟨.hbm, 80, rfl⟩
abbrev main_v53 : Ref sig .tc := ⟨.hbm, 81, rfl⟩
abbrev main_v54 : Ref sig .tc := ⟨.hbm, 82, rfl⟩
abbrev main_c_16 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_17 : Ref sig .tc := ⟨.hbm, 90, rfl⟩
abbrev main_v61 : Ref sig .tc := ⟨.hbm, 91, rfl⟩
abbrev main_v62 : Ref sig .tc := ⟨.hbm, 92, rfl⟩
abbrev main_cst_18 : Ref sig .tc := ⟨.hbm, 93, rfl⟩
abbrev main_v63 : Ref sig .tc := ⟨.hbm, 94, rfl⟩
abbrev main_v64 : Ref sig .tc := ⟨.hbm, 95, rfl⟩
abbrev main_cst_19 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_20 : Ref sig .tc := ⟨.hbm, 100, rfl⟩
abbrev main_v68 : Ref sig .tc := ⟨.hbm, 101, rfl⟩
abbrev main_v69 : Ref sig .tc := ⟨.hbm, 102, rfl⟩
abbrev main_cst_21 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_22 : Ref sig .tc := ⟨.hbm, 108, rfl⟩
abbrev main_v74 : Ref sig .tc := ⟨.hbm, 109, rfl⟩
abbrev main_v75 : Ref sig .tc := ⟨.hbm, 110, rfl⟩
abbrev main_cst_23 : Ref sig .tc := ⟨.hbm, 111, rfl⟩
abbrev main_v76 : Ref sig .tc := ⟨.hbm, 112, rfl⟩
abbrev main_v77 : Ref sig .tc := ⟨.hbm, 113, rfl⟩
abbrev main_cst_24 : Ref sig .tc := ⟨.hbm, 114, rfl⟩
abbrev main_cst_25 : Ref sig .tc := ⟨.hbm, 115, rfl⟩
abbrev main_call1_v0 : Ref sig .tc := ⟨.hbm, 116, rfl⟩
abbrev main_call1_v1 : Ref sig .tc := ⟨.hbm, 117, rfl⟩
abbrev main_call1_v2 : Ref sig .tc := ⟨.hbm, 118, rfl⟩
abbrev main_call1_v3 : Ref sig .tc := ⟨.hbm, 119, rfl⟩
abbrev main_call1_v4 : Ref sig .tc := ⟨.hbm, 120, rfl⟩
abbrev main_v78 : Ref sig .tc := ⟨.hbm, 121, rfl⟩
abbrev main_cst_26 : Ref sig .tc := ⟨.hbm, 122, rfl⟩
abbrev main_v79 : Ref sig .tc := ⟨.hbm, 123, rfl⟩
abbrev main_v80 : Ref sig .tc := ⟨.hbm, 124, rfl⟩
abbrev main_cst_27 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_c_28 : Ref sig .tc := ⟨.hbm, 132, rfl⟩
abbrev main_v87 : Ref sig .tc := ⟨.hbm, 133, rfl⟩
abbrev main_v88 : Ref sig .tc := ⟨.hbm, 134, rfl⟩
abbrev main_c_29 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_cst_30 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_c_31 : Ref sig .tc := ⟨.hbm, 152, rfl⟩
abbrev main_v104 : Ref sig .tc := ⟨.hbm, 153, rfl⟩
abbrev main_v105 : Ref sig .tc := ⟨.hbm, 154, rfl⟩
abbrev main_c_32 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_cst_33 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  slices_S2x800000_S1x800000_1_0 : S2x800000.Slices ![1, 0] S1x800000
  reducesTo_S800000x64_S800000_d1 : S800000x64.ReducesTo [1] S800000
  h_S_ : 0 < S_.numel
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.BBody.lean ====
/-
  What one call of each kernel body does to its five staging buffers: it reads the two embedding blocks, the
  column-value block and the base-weight block whole, and overwrites the output block whole with the payload
  (the body's arithmetic as one pure term of the four blocks read).
-/
import proofs.«125321_j34136400068849_1_alg».proof.Proof.Gen.Kernel.Launch
import proofs.«125321_j34136400068849_1_alg».proof.Proof.Gen.Kernel.Skeleton
import proofs.«125321_j34136400068849_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole 8000×64 block and the whole 8000×1 block, as rectangles. -/
abbrev rA : Rect S8000x64 := Rect.unit (s := S8000x64) ![0, 0] S8000x64.size inb_S8000x64_S8000x64_0_0
abbrev rB : Rect S8000x1 := Rect.unit (s := S8000x1) ![0, 0] S8000x1.size inb_S8000x1_S8000x1_0_0

/-- The output buffer after the body of kernel 0, from the four input blocks (x0, x1 the two embedding blocks, x2 the
    column values, x3 the base weights): its one store as a piece. -/
def out0 (x0 x1 x2 : Vec F S8000x64 .f32) (x3 : Vec F S8000x1 .f32) : Vec F S8000x64 .f32 :=
  View.canon [⟨rA, k0_pay1 (View.ld x0 rA) (View.ld x1 rA) (View.ld x3 rB) (View.ld x2 rA)⟩]
/-- The same for kernel 1. -/
def out1 (x0 x1 x2 : Vec F S8000x64 .f32) (x3 : Vec F S8000x1 .f32) : Vec F S8000x64 .f32 :=
  View.canon [⟨rA, k1_pay1 (View.ld x0 rA) (View.ld x1 rA) (View.ld x3 rB) (View.ld x2 rA)⟩]

/-- The one store covers the output block. -/
theorem coverA (p0 : Vec F S8000x64 .f32) (y : S8000x64.Idx) :
    ∃ pc ∈ ([⟨rA, p0⟩] : List (View.Piece (Elt F) S8000x64 .f32)), y ∈ pc.1.set :=
  View.cover_of_tiled [⟨rA, p0⟩] S8000x64.size (by rfl) y

/-- The body of kernel 0 on whole staging buffers: the four inputs' buffers at read contents, the output's at anything,
    runs to the continuation holding the inputs' as they were and the output's at `out0` of the inputs'. -/
theorem sound_kernel0 (c : Dev nD) (E : Set ℕ) (i : grid0.Coords) (arg1 : Memref sig .tc .vmem S8000x64 .f32) (harg1 : arg1.IsWhole) (arg2 : Memref sig .tc .vmem S8000x64 .f32) (harg2 : arg2.IsWhole) (arg3 : Memref sig .tc .vmem S8000x64 .f32) (harg3 : arg3.IsWhole) (arg4 : Memref sig .tc .vmem S8000x1 .f32) (harg4 : arg4.IsWhole) (arg5 : Memref sig .tc .vmem S8000x64 .f32) (harg5 : arg5.IsWhole)
    (x0 x1 x2 : Vec F S8000x64 .f32) (x3 : Vec F S8000x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0 x0 x1 x2 x3)) -∗ K ⟨⟩))
      ⊢ wp frame (wpE (defs₀ (F := F)) Variants.none c none) E (cc0__weighted_message_kernel i arg1 harg1 arg2 harg2 arg3 harg3 arg4 harg4 arg5 harg5) K := by
  simp only [cc0__weighted_message_kernel_eq_skeleton]; unfold cc0__weighted_message_kernel_skel
  -- each buffer's ownership is a points-to at some contents whose read is the stated block
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  -- run the four loads, the pure payload, the load of the output and its one whole-block store
  sl_exec
  sl_step
  -- hand every buffer back: the inputs unchanged, the output at its prior contents overwritten by the one piece
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  -- one piece covering the block: reading the overwritten buffer gives the canonical block of that piece
  exact View.read_writes_eq_canon _ _ _ (coverA _)

/-- The body of kernel 1 on whole staging buffers: the four inputs' buffers at read contents, the output's at anything,
    runs to the continuation holding the inputs' as they were and the output's at `out1` of the inputs'. -/
theorem sound_kernel1 (c : Dev nD) (E : Set ℕ) (i : grid1.Coords) (arg1 : Memref sig .tc .vmem S8000x64 .f32) (harg1 : arg1.IsWhole) (arg2 : Memref sig .tc .vmem S8000x64 .f32) (harg2 : arg2.IsWhole) (arg3 : Memref sig .tc .vmem S8000x64 .f32) (harg3 : arg3.IsWhole) (arg4 : Memref sig .tc .vmem S8000x1 .f32) (harg4 : arg4.IsWhole) (arg5 : Memref sig .tc .vmem S8000x64 .f32) (harg5 : arg5.IsWhole)
    (x0 x1 x2 : Vec F S8000x64 .f32) (x3 : Vec F S8000x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1 x0 x1 x2 x3)) -∗ K ⟨⟩))
      ⊢ wp frame (wpE (defs₀ (F := F)) Variants.none c none) E (cc1__weighted_message_kernel i arg1 harg1 arg2 harg2 arg3 harg3 arg4 harg4 arg5 harg5) K := by
  simp only [cc1__weighted_message_kernel_eq_skeleton]; unfold cc1__weighted_message_kernel_skel
  -- each buffer's ownership is a points-to at some contents whose read is the stated block
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  -- run the four loads, the pure payload, the load of the output and its one whole-block store
  sl_exec
  sl_step
  -- hand every buffer back: the inputs unchanged, the output at its prior contents overwritten by the one piece
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  -- one piece covering the block: reading the overwritten buffer gives the canonical block of that piece
  exact View.read_writes_eq_canon _ _ _ (coverA _)

end Cert.Kernel.Hand

end
-- ==== Proof.BData.lean ====
/-
  The proof data of the two kernel regions, each at a parameter `V` (the TensorCore's buffer contents when the region
  is entered), and the body obligation at every grid point.
-/
import proofs.«125321_j34136400068849_1_alg».proof.Proof.BBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block of region 0 at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data of region 0 on core `c`: the arrays as the region finds them; after the body at point `t` each
    input's buffer still at its block and the output's at `out0` of the four input blocks; the invariant the scoped
    rest and the generator register, untouched; nothing owed; the one array that two input windows read is held half by each. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0 (iblk0 V c 0 t) (iblk0 V c 1 t) (iblk0 V c 2 t) (iblk0 V c 3 t)
  Φ _ := Pipeline.ΦA spec0 c
  q w := match w with
    | ⟨1, _⟩ => fullShare.left
    | ⟨2, _⟩ => fullShare.right
    | _ => fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0 (iblk0 V c 0 t) (iblk0 V c 1 t) (iblk0 V c 2 t) (iblk0 V c 3 t) := by dsimp only [dat0]

/-- Input window 0's current staging buffer of region 0 holds its block at every point, fetched there or not, for
    any proof data whose array is `V`'s and whose body leaves the block in place: not fetched means the block index
    has not moved, so the buffer still holds the block; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer of region 0 holds its block at every point, fetched there or not, for
    any proof data whose array is `V`'s and whose body leaves the block in place: not fetched means the block index
    has not moved, so the buffer still holds the block; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer of region 0 holds its block at every point, fetched there or not, for
    any proof data whose array is `V`'s and whose body leaves the block in place: not fetched means the block index
    has not moved, so the buffer still holds the block; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer of region 0 holds its block at every point, fetched there or not, for
    any proof data whose array is `V`'s and whose body leaves the block in place: not fetched means the block index
    has not moved, so the buffer still holds the block; the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Each input's current staging buffer holds its block at every point, for the region's own proof data. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point `t`: the invariant, the core's dues, and each window's current staging
    buffer whole at what it then holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What the body returns: the invariant and the dues at the next point, each buffer at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the four inputs' buffers hold their blocks, so the body's triple applies; the invariant
    and the core's dues do not depend on the point and pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of region 0, at every point: each input's current staging buffer holds its block there, so the
    body's triple applies; the invariant and the core's dues pass through unread. -/
theorem body_obligation0 (c : Dev nD) : BodyObligation (dat0 (F := F) V c) (defs₀ (F := F)) Variants.none () Set.univ := fun t => by
  rw [bigSep_W0, bigSep_W0]
  exact sound_body0 V c t

/-- Window `w`'s block of region 1 at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data of region 1 on core `c`: the arrays as the region finds them; after the body at point `t` each
    input's buffer still at its block and the output's at `out1` of the four input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1 (iblk1 V c 0 t) (iblk1 V c 1 t) (iblk1 V c 2 t) (iblk1 V c 3 t)
  Φ _ := Pipeline.ΦA spec1 c
  q w := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1 (iblk1 V c 0 t) (iblk1 V c 1 t) (iblk1 V c 2 t) (iblk1 V c 3 t) := by dsimp only [dat1]

/-- Input window 0's current staging buffer of region 1 holds its block at every point, fetched there or not, for
    any proof data whose array is `V`'s and whose body leaves the block in place: not fetched means the block index
    has not moved, so the buffer still holds the block; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer of region 1 holds its block at every point, fetched there or not, for
    any proof data whose array is `V`'s and whose body leaves the block in place: not fetched means the block index
    has not moved, so the buffer still holds the block; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer of region 1 holds its block at every point, fetched there or not, for
    any proof data whose array is `V`'s and whose body leaves the block in place: not fetched means the block index
    has not moved, so the buffer still holds the block; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer of region 1 holds its block at every point, fetched there or not, for
    any proof data whose array is `V`'s and whose body leaves the block in place: not fetched means the block index
    has not moved, so the buffer still holds the block; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Each input's current staging buffer holds its block at every point, for the region's own proof data. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`: the invariant, the core's dues, and each window's current staging
    buffer whole at what it then holds. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- What the body returns: the invariant and the dues at the next point, each buffer at what the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the four inputs' buffers hold their blocks, so the body's triple applies; the invariant
    and the core's dues do not depend on the point and pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of region 1, at every point: each input's current staging buffer holds its block there, so the
    body's triple applies; the invariant and the core's dues pass through unread. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BRegions.lean ====
/-
  The buffer contents at each boundary between @main's five items (host operations, region 0, host operations,
  region 1, host operations), every pipeline's proof data at its region's entry contents, and the two regions as
  segments over the thread state "every unscoped buffer at the boundary's contents, the generator register at some
  state, nothing owed". Region 0 hands ONE array (the second endpoint's gathered rows) to two input windows: at entry
  that array's buffer is split into two half shares, one per window, and at exit the halves are joined again.
-/
import proofs.«125321_j34136400068849_1_alg».proof.Proof.BData
import proofs.«125321_j34136400068849_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

/-! ## The buffer contents at each boundary -/

/-- Core `c`'s buffers at launch. -/
abbrev W0 : Dev nD → Valuation τ sig (Elt F) := fun c b => m (c, b)
/-- After the first stretch of host operations (region 0's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At region 0's exit: its output array at what the write-backs leave, every other buffer as entered. -/
def W2 (c : Dev nD) : Valuation τ sig (Elt F) :=
  Function.update (W1 m c) (Proc.devRef .tc main_v19) ((dat0 (V1 m) c).arrAt 4 cfg0.N)
/-- After the second stretch of host operations (region 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit. -/
def W4 (c : Dev nD) : Valuation τ sig (Elt F) :=
  Function.update (W3 m c) (Proc.devRef .tc main_v53) ((dat1 (V3 m) c).arrAt 4 cfg1.N)
/-- After the last stretch of host operations: the contents @main returns with. -/
abbrev W5 : Dev nD → Valuation τ sig (Elt F) := fun c => StableHlo.after hostOps2 (W4 m c)

theorem W2_out (c : Dev nD) : W2 m c (Proc.devRef .tc main_v19) = (dat0 (V1 m) c).arrAt 4 cfg0.N := by
  unfold W2; exact Function.update_self ..
theorem W2_of_ne (c : Dev nD) (b : Ref sig .tc) (hb : b ≠ main_v19) : W2 m c (Proc.devRef .tc b) = W1 m c (Proc.devRef .tc b) := by
  unfold W2; exact Function.update_of_ne (StableHlo.devRef_ne_of_ne hb) ..
theorem W4_out (c : Dev nD) : W4 m c (Proc.devRef .tc main_v53) = (dat1 (V3 m) c).arrAt 4 cfg1.N := by
  unfold W4; exact Function.update_self ..
theorem W4_of_ne (c : Dev nD) (b : Ref sig .tc) (hb : b ≠ main_v53) : W4 m c (Proc.devRef .tc b) = W3 m c (Proc.devRef .tc b) := by
  unfold W4; exact Function.update_of_ne (StableHlo.devRef_ne_of_ne hb) ..

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)

section Arrays0
variable (V : (c : Dev nD) → (b : Ref sig .tc) → Buf (Elt F) ((c : Thread nD τ).loc b))

/-! ## Region 0's arrays: four buffers dealt to five windows -/

/-- The distinct buffers behind region 0's five windows: windows 1 and 2 are on one array. -/
theorem img0 : Finset.univ.image (Pipeline.arrRef spec0) = ({main_v8, main_v17, main_v18, main_v19} : Finset (Ref sig .tc)) := by decide

/-- One window's array, a whole buffer, held at a share: the same as that buffer held whole at the share. -/
theorem arr0_piece (c : Dev nD) (V' : (b : Ref sig .tc) → Buf (Elt F) ((c : Thread nD τ).loc b))
    (Fw : (w : Fin cfg0.W) → Buf (Elt F) ((cfg0.win w).arr.view.loc (c : Thread nD τ)))
    (hF : ∀ w, Fw w = V' (Pipeline.arrRef spec0 w)) (w : Fin cfg0.W) (q : PosShare TreeShare) :
    ((cfg0.win w).arr.view.loc (c : Thread nD τ) ↦[(cfg0.win w).arr.view.set]{q} Fw w : sProp 𝕄)
      = ((c : Thread nD τ).loc (Pipeline.arrRef spec0 w) ↦{q} V' (Pipeline.arrRef spec0 w)) := by
  rw [(arr_whole0 w).set_eq_univ, hF w]

/-- The buffers behind region 0's arrays, one by one. -/
theorem arrBufs0_eq (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop(((c : Thread nD τ).loc main_v8 ↦{fullShare} V' main_v8) ∗ ((c : Thread nD τ).loc main_v17 ↦{fullShare} V' main_v17)
          ∗ ((c : Thread nD τ).loc main_v18 ↦{fullShare} V' main_v18) ∗ ((c : Thread nD τ).loc main_v19 ↦{fullShare} V' main_v19)) := by
  unfold Pipeline.arrBufs
  rw [img0, bigSep_insert (by decide), bigSep_insert (by decide), bigSep_insert (by decide), bigSep_singleton]
  rfl

/-- Region 0's five windows' arrays at contents read off a valuation, one by one: the array of windows 1 and 2 held half
    by each. -/
theorem arrays0_eq (c : Dev nD) (V' : (b : Ref sig .tc) → Buf (Elt F) ((c : Thread nD τ).loc b))
    (Fw : (w : Fin cfg0.W) → Buf (Elt F) ((cfg0.win w).arr.view.loc (c : Thread nD τ)))
    (hF : ∀ w, Fw w = V' (Pipeline.arrRef spec0 w)) :
    ((dat0 V c).arrays Fw : sProp 𝕄)
      = iprop(((c : Thread nD τ).loc main_v8 ↦{fullShare} V' main_v8) ∗ ((c : Thread nD τ).loc main_v17 ↦{fullShare.left} V' main_v17)
          ∗ ((c : Thread nD τ).loc main_v17 ↦{fullShare.right} V' main_v17)
          ∗ ((c : Thread nD τ).loc main_v18 ↦{fullShare} V' main_v18) ∗ ((c : Thread nD τ).loc main_v19 ↦{fullShare} V' main_v19)) := by
  unfold Pipeline.Dat.arrays
  rw [bigSep_W0, arr0_piece c V' Fw hF 0, arr0_piece c V' Fw hF 1, arr0_piece c V' Fw hF 2, arr0_piece c V' Fw hF 3,
    arr0_piece c V' Fw hF 4]
  rfl

/-- ENTRY: the four buffers whole make the five windows' arrays, the shared one split in two halves. -/
theorem arrays0_of_bufs (c : Dev nD) (V' : (b : Ref sig .tc) → Buf (Elt F) ((c : Thread nD τ).loc b))
    (Fw : (w : Fin cfg0.W) → Buf (Elt F) ((cfg0.win w).arr.view.loc (c : Thread nD τ)))
    (hF : ∀ w, Fw w = V' (Pipeline.arrRef spec0 w)) :
    (Pipeline.arrBufs (Ix := Unit) (Name := ℕ) (U := UR sig nD τ) (Lvl := ℕ) spec0 c V' : sProp 𝕄) ⊢ (dat0 V c).arrays Fw := by
  rw [arrBufs0_eq, arrays0_eq V c V' Fw hF]
  iintro ⟨H0, H1, H3, H4⟩
  ihave H12 := (pointsTo_share (PosShare.mem_left_op_right fullShare)).1 $$ H1
  icases H12 with ⟨H1, H2⟩
  isplitl [H0]; · iexact H0
  isplitl [H1]; · iexact H1
  isplitl [H2]; · iexact H2
  isplitl [H3]; · iexact H3
  iexact H4

/-- EXIT: the five windows' arrays, the two halves of the shared one at the same contents, make the four buffers whole. -/
theorem bufs_of_arrays0 (c : Dev nD) (V' : (b : Ref sig .tc) → Buf (Elt F) ((c : Thread nD τ).loc b))
    (Fw : (w : Fin cfg0.W) → Buf (Elt F) ((cfg0.win w).arr.view.loc (c : Thread nD τ)))
    (hF : ∀ w, Fw w = V' (Pipeline.arrRef spec0 w)) :
    ((dat0 V c).arrays Fw : sProp 𝕄) ⊢ Pipeline.arrBufs (Ix := Unit) (Name := ℕ) (U := UR sig nD τ) (Lvl := ℕ) spec0 c V' := by
  rw [arrBufs0_eq, arrays0_eq V c V' Fw hF]
  iintro ⟨H0, H1, H2, H3, H4⟩
  ihave H12 := (pointsTo_share (PosShare.mem_left_op_right fullShare)).2 $$ [H1 H2]
  · isplitl [H1]; · iexact H1
    iexact H2
  isplitl [H0]; · iexact H0
  isplitl [H12]; · iexact H12
  isplitl [H3]; · iexact H3
  iexact H4

end Arrays0

/-! ## Region 0's exit contents, array by array -/

/-- At region 0's exit each of its arrays holds what the pipeline leaves: the output array is the one updated; each
    input array is no other buffer than it was and the pipeline leaves an input's array as entered — so the two
    windows on one array end at the same contents. -/
theorem hF0 (c : Dev nD) (w : Fin cfg0.W) :
    (dat0 (V1 m) c).arrAt w cfg0.N = W2 m c (Proc.devRef .tc (Pipeline.arrRef spec0 w)) :=
  match w with
  | ⟨0, _⟩ => (((dat0 (V1 m) c).arrAt_in 0 rfl _).trans (A_eq0 (V1 m) c 0)).trans (W2_of_ne m c _ (by decide)).symm
  | ⟨1, _⟩ => (((dat0 (V1 m) c).arrAt_in 1 rfl _).trans (A_eq0 (V1 m) c 1)).trans (W2_of_ne m c _ (by decide)).symm
  | ⟨2, _⟩ => (((dat0 (V1 m) c).arrAt_in 2 rfl _).trans (A_eq0 (V1 m) c 2)).trans (W2_of_ne m c _ (by decide)).symm
  | ⟨3, _⟩ => (((dat0 (V1 m) c).arrAt_in 3 rfl _).trans (A_eq0 (V1 m) c 3)).trans (W2_of_ne m c _ (by decide)).symm
  | ⟨4, _⟩ => (W2_out m c).symm
/-- Every buffer that is no array of region 0 holds at its exit what it held at entry. -/
theorem hrest0 (c : Dev nD) : ∀ b : Ref sig .tc, b ∉ Finset.univ.image (Pipeline.arrRef spec0) →
    W2 m c (Proc.devRef .tc b) = W1 m c (Proc.devRef .tc b) :=
  fun b hb => W2_of_ne m c b fun e => hb (Finset.mem_image.mpr ⟨4, Finset.mem_univ _, e.symm⟩)

/-! ## Region 1's exit contents, array by array -/

/-- At region 1's exit each of its arrays holds what the pipeline leaves: the output array is the one updated; each
    input array is no other buffer than it was and the pipeline leaves an input's array as entered. -/
theorem hF1 (c : Dev nD) (w : Fin cfg1.W) :
    (dat1 (V3 m) c).arrAt w cfg1.N = W4 m c (Proc.devRef .tc (Pipeline.arrRef spec1 w)) :=
  match w with
  | ⟨0, _⟩ => (((dat1 (V3 m) c).arrAt_in 0 rfl _).trans (A_eq1 (V3 m) c 0)).trans (W4_of_ne m c _ (by decide)).symm
  | ⟨1, _⟩ => (((dat1 (V3 m) c).arrAt_in 1 rfl _).trans (A_eq1 (V3 m) c 1)).trans (W4_of_ne m c _ (by decide)).symm
  | ⟨2, _⟩ => (((dat1 (V3 m) c).arrAt_in 2 rfl _).trans (A_eq1 (V3 m) c 2)).trans (W4_of_ne m c _ (by decide)).symm
  | ⟨3, _⟩ => (((dat1 (V3 m) c).arrAt_in 3 rfl _).trans (A_eq1 (V3 m) c 3)).trans (W4_of_ne m c _ (by decide)).symm
  | ⟨4, _⟩ => (W4_out m c).symm
/-- Every buffer that is no array of region 1 holds at its exit what it held at entry. -/
theorem hrest1 (c : Dev nD) : ∀ b : Ref sig .tc, b ∉ Finset.univ.image (Pipeline.arrRef spec1) →
    W4 m c (Proc.devRef .tc b) = W3 m c (Proc.devRef .tc b) :=
  fun b hb => W4_of_ne m c b fun e => hb (Finset.mem_image.mpr ⟨4, Finset.mem_univ _, e.symm⟩)

/-! ## The regions as segments -/

set_option backward.isDefEq.respectTransparency.types false in
/-- REGION 0 over the thread state: entered from every unscoped buffer at `W1`, left at `W2`. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit : (unscopedBufs (Ix := Unit) (Name := ℕ) (U := UR sig nD τ) (Lvl := ℕ) c (V1 m c) : sProp 𝕄)
        ⊢ iprop((pdats m 0 c).arrays ((pdats m 0 c).arrAt · 0)
            ∗ Pipeline.unscopedRest (Ix := Unit) (Name := ℕ) (U := UR sig nD τ) (Lvl := ℕ) spec0 c (V1 m c)) := by
      rw [Pipeline.unscopedBufs_split₀ (Pipeline.pin (pcfgs (F := F)) adm) 0 winFacts₀0.arr_unscoped c (V1 m c)]
      exact sep_mono (arrays0_of_bufs (V1 m) c (V1 m c) _ fun _ => rfl) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N)
          ∗ Pipeline.unscopedRest (Ix := Unit) (Name := ℕ) (U := UR sig nD τ) (Lvl := ℕ) spec0 c (V1 m c))
        ⊢ (unscopedBufs (Ix := Unit) (Name := ℕ) (U := UR sig nD τ) (Lvl := ℕ) c (fun b => W2 m c b) : sProp 𝕄) := by
      rw [Pipeline.unscopedBufs_split₀ (Pipeline.pin (pcfgs (F := F)) adm) 0 winFacts₀0.arr_unscoped c (fun b => W2 m c b)]
      refine sep_mono (bufs_of_arrays0 (V1 m) c (fun b => W2 m c b) _ (hF0 m c)) (Entails.of_eq ?_)
      unfold Pipeline.unscopedRest
      exact bigSep_congr fun b hb => by beta_reduce; rw [hrest0 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (fun b => W4 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.BRun.lean ====
/-
  @main's run: from any launch memory with zero counters every weakly fair execution of @main terminates, nothing
  faulting, and every unscoped buffer ends at the last boundary's contents `W5`. Read at the result's buffer this names
  what @main returns; read at an argument's buffer, which no host operation writes and no region may change, it gives the
  launch contents back.
-/
import proofs.«125321_j34136400068849_1_alg».proof.Proof.BRegions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## @main as segments -/

/-- A host stretch as a segment: its operations over the unscoped references from the contents `W`, `R` riding along;
    it ends with those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The last thread state without the dues (the chain ends at it BESIDE the core owing nothing): every unscoped buffer
    at the last boundary's contents `W5`, the generator register at some state. -/
abbrev Tₙ (c : Dev nD) : sProp 𝕄 := iprop(StableHlo.held (c : Thread nD τ) (Pipeline.ucRefs τ sig) (W5 m c) ∗ ∃ r, prngReg c r)

/-- @main's five segments in order: a host segment per stretch from its boundary's contents, a region per kernel call. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last segment's thread state is `Tₙ` beside the core owing nothing: the same three resources, regrouped. -/
theorem last_split (c : Dev nD) : iprop(StableHlo.held (c : Thread nD τ) (Pipeline.ucRefs τ sig) (W5 m c) ∗ R c)
    ⊢ (iprop(Tₙ m c ∗ ∃ W, owes (c : Thread nD τ) (0 : CellTallies nD τ sig Unit) W) : sProp 𝕄) := by
  iintro ⟨Hh, Hp, HO⟩
  isplitr [HO]
  · isplitl [Hh]; · iexact Hh
    iexact Hp
  iexact HO

set_option backward.isDefEq.respectTransparency.types false in
/-- THE RUN, every unscoped buffer named. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => last_split m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-! ## The arguments through the fold -/

/-- An argument's buffer at the last boundary holds its launch contents. -/
theorem W5_arg (c : Dev nD) (r : Ref sig .tc) (h0 : r ∉ hostOps0_W) (h1 : r ∉ hostOps1_W) (h2 : r ∉ hostOps2_W)
    (h19 : r ≠ main_v19) (h53 : r ≠ main_v53) : W5 m c (Proc.devRef .tc r) = m ((c : Thread nD τ).loc r) :=
  (StableHlo.after_of_writes_sub hostOps2 _ hostOps2_writes h2).trans <|
    (W4_of_ne m c r h53).trans <|
      (StableHlo.after_of_writes_sub hostOps1 _ hostOps1_writes h1).trans <|
        (W2_of_ne m c r h19).trans <|
          (StableHlo.after_of_writes_sub hostOps0 _ hostOps0_writes h0).trans rfl

/-- The run with the result's buffer and the five arguments' read off. -/
theorem run_value : θ_run defs (onTc (τ := τ) (main (F := F))) ⟨m, fun _ => 0, ρ⟩ (fun r => ∀ c : Dev nD,
      r.2.mem ((c.tc : Thread nD τ).loc main_v58) = W5 m c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨h c _ (mem_uc main_v58 (by decide)),
      (h c _ (mem_uc main_arg0 (by decide))).trans (W5_arg m c main_arg0 (by decide) (by decide) (by decide) (by decide) (by decide)),
      (h c _ (mem_uc main_arg1 (by decide))).trans (W5_arg m c main_arg1 (by decide) (by decide) (by decide) (by decide) (by decide)),
      (h c _ (mem_uc main_arg2 (by decide))).trans (W5_arg m c main_arg2 (by decide) (by decide) (by decide) (by decide) (by decide)),
      (h c _ (mem_uc main_arg3 (by decide))).trans (W5_arg m c main_arg3 (by decide) (by decide) (by decide) (by decide) (by decide)),
      (h c _ (mem_uc main_arg4 (by decide))).trans (W5_arg m c main_arg4 (by decide) (by decide) (by decide) (by decide) (by decide))⟩)
    (run_main m ρ)

end Cert.Kernel.Hand

end
-- ==== Proof.KBody.lean ====
/-
  What one call of each kernel body does to its five staging buffers: it reads the two embedding blocks, the
  column-value block and the base-weight block whole, and overwrites the output block whole with the payload
  (the body's arithmetic as one pure term of the four blocks read).
-/
import proofs.«125321_j34136400068849_1_alg».proof.Proof.Gen.KernelIdeal.Launch
import proofs.«125321_j34136400068849_1_alg».proof.Proof.Gen.KernelIdeal.Skeleton
import proofs.«125321_j34136400068849_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole 8000×64 block and the whole 8000×1 block, as rectangles. -/
abbrev rA : Rect S8000x64 := Rect.unit (s := S8000x64) ![0, 0] S8000x64.size inb_S8000x64_S8000x64_0_0
abbrev rB : Rect S8000x1 := Rect.unit (s := S8000x1) ![0, 0] S8000x1.size inb_S8000x1_S8000x1_0_0

/-- The output buffer after the body of kernel 0, from the four input blocks (x0, x1 the two embedding blocks, x2 the
    column values, x3 the base weights): its one store as a piece. -/
def out0 (x0 x1 x2 : Vec F S8000x64 .f32) (x3 : Vec F S8000x1 .f32) : Vec F S8000x64 .f32 :=
  View.canon [⟨rA, k0_pay1 (View.ld x0 rA) (View.ld x1 rA) (View.ld x3 rB) (View.ld x2 rA)⟩]
/-- The same for kernel 1. -/
def out1 (x0 x1 x2 : Vec F S8000x64 .f32) (x3 : Vec F S8000x1 .f32) : Vec F S8000x64 .f32 :=
  View.canon [⟨rA, k1_pay1 (View.ld x0 rA) (View.ld x1 rA) (View.ld x3 rB) (View.ld x2 rA)⟩]

/-- The one store covers the output block. -/
theorem coverA (p0 : Vec F S8000x64 .f32) (y : S8000x64.Idx) :
    ∃ pc ∈ ([⟨rA, p0⟩] : List (View.Piece (Elt F) S8000x64 .f32)), y ∈ pc.1.set :=
  View.cover_of_tiled [⟨rA, p0⟩] S8000x64.size (by rfl) y

/-- The body of kernel 0 on whole staging buffers: the four inputs' buffers at read contents, the output's at anything,
    runs to the continuation holding the inputs' as they were and the output's at `out0` of the inputs'. -/
theorem sound_kernel0 (c : Dev nD) (E : Set ℕ) (i : grid0.Coords) (arg1 : Memref sig .tc .vmem S8000x64 .f32) (harg1 : arg1.IsWhole) (arg2 : Memref sig .tc .vmem S8000x64 .f32) (harg2 : arg2.IsWhole) (arg3 : Memref sig .tc .vmem S8000x64 .f32) (harg3 : arg3.IsWhole) (arg4 : Memref sig .tc .vmem S8000x1 .f32) (harg4 : arg4.IsWhole) (arg5 : Memref sig .tc .vmem S8000x64 .f32) (harg5 : arg5.IsWhole)
    (x0 x1 x2 : Vec F S8000x64 .f32) (x3 : Vec F S8000x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0 x0 x1 x2 x3)) -∗ K ⟨⟩))
      ⊢ wp frame (wpE (defs₀ (F := F)) Variants.none c none) E (cc0__weighted_message_kernel i arg1 harg1 arg2 harg2 arg3 harg3 arg4 harg4 arg5 harg5) K := by
  simp only [cc0__weighted_message_kernel_eq_skeleton]; unfold cc0__weighted_message_kernel_skel
  -- each buffer's ownership is a points-to at some contents whose read is the stated block
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  -- run the four loads, the pure payload, the load of the output and its one whole-block store
  sl_exec
  sl_step
  -- hand every buffer back: the inputs unchanged, the output at its prior contents overwritten by the one piece
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  -- one piece covering the block: reading the overwritten buffer gives the canonical block of that piece
  exact View.read_writes_eq_canon _ _ _ (coverA _)

/-- The body of kernel 1 on whole staging buffers: the four inputs' buffers at read contents, the output's at anything,
    runs to the continuation holding the inputs' as they were and the output's at `out1` of the inputs'. -/
theorem sound_kernel1 (c : Dev nD) (E : Set ℕ) (i : grid1.Coords) (arg1 : Memref sig .tc .vmem S8000x64 .f32) (harg1 : arg1.IsWhole) (arg2 : Memref sig .tc .vmem S8000x64 .f32) (harg2 : arg2.IsWhole) (arg3 : Memref sig .tc .vmem S8000x64 .f32) (harg3 : arg3.IsWhole) (arg4 : Memref sig .tc .vmem S8000x1 .f32) (harg4 : arg4.IsWhole) (arg5 : Memref sig .tc .vmem S8000x64 .f32) (harg5 : arg5.IsWhole)
    (x0 x1 x2 : Vec F S8000x64 .f32) (x3 : Vec F S8000x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1 x0 x1 x2 x3)) -∗ K ⟨⟩))
      ⊢ wp frame (wpE (defs₀ (F := F)) Variants.none c none) E (cc1__weighted_message_kernel i arg1 harg1 arg2 harg2 arg3 harg3 arg4 harg4 arg5 harg5) K := by
  simp only [cc1__weighted_message_kernel_eq_skeleton]; unfold cc1__weighted_message_kernel_skel
  -- each buffer's ownership is a points-to at some contents whose read is the stated block
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  -- run the four loads, the pure payload, the load of the output and its one whole-block store
  sl_exec
  sl_step
  -- hand every buffer back: the inputs unchanged, the output at its prior contents overwritten by the one piece
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  -- one piece covering the block: reading the overwritten buffer gives the canonical block of that piece
  exact View.read_writes_eq_canon _ _ _ (coverA _)

end Cert.KernelIdeal.Hand

end
-- ==== Proof.KData.lean ====
/-
  The proof data of the two kernel regions, each at a parameter `V` (the TensorCore's buffer contents when the region
  is entered), and the body obligation at every grid point.
-/
import proofs.«125321_j34136400068849_1_alg».proof.Proof.KBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block of region 0 at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data of region 0 on core `c`: the arrays as the region finds them; after the body at point `t` each
    input's buffer still at its block and the output's at `out0` of the four input blocks; the invariant the scoped
    rest and the generator register, untouched; nothing owed; the one array that two input windows read is held half by each. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0 (iblk0 V c 0 t) (iblk0 V c 1 t) (iblk0 V c 2 t) (iblk0 V c 3 t)
  Φ _ := Pipeline.ΦA spec0 c
  q w := match w with
    | ⟨1, _⟩ => fullShare.left
    | ⟨2, _⟩ => fullShare.right
    | _ => fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0 (iblk0 V c 0 t) (iblk0 V c 1 t) (iblk0 V c 2 t) (iblk0 V c 3 t) := by dsimp only [dat0]

/-- Input window 0's current staging buffer of region 0 holds its block at every point, fetched there or not, for
    any proof data whose array is `V`'s and whose body leaves the block in place: not fetched means the block index
    has not moved, so the buffer still holds the block; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer of region 0 holds its block at every point, fetched there or not, for
    any proof data whose array is `V`'s and whose body leaves the block in place: not fetched means the block index
    has not moved, so the buffer still holds the block; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer of region 0 holds its block at every point, fetched there or not, for
    any proof data whose array is `V`'s and whose body leaves the block in place: not fetched means the block index
    has not moved, so the buffer still holds the block; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer of region 0 holds its block at every point, fetched there or not, for
    any proof data whose array is `V`'s and whose body leaves the block in place: not fetched means the block index
    has not moved, so the buffer still holds the block; the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Each input's current staging buffer holds its block at every point, for the region's own proof data. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point `t`: the invariant, the core's dues, and each window's current staging
    buffer whole at what it then holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What the body returns: the invariant and the dues at the next point, each buffer at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the four inputs' buffers hold their blocks, so the body's triple applies; the invariant
    and the core's dues do not depend on the point and pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of region 0, at every point: each input's current staging buffer holds its block there, so the
    body's triple applies; the invariant and the core's dues pass through unread. -/
theorem body_obligation0 (c : Dev nD) : BodyObligation (dat0 (F := F) V c) (defs₀ (F := F)) Variants.none () Set.univ := fun t => by
  rw [bigSep_W0, bigSep_W0]
  exact sound_body0 V c t

/-- Window `w`'s block of region 1 at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data of region 1 on core `c`: the arrays as the region finds them; after the body at point `t` each
    input's buffer still at its block and the output's at `out1` of the four input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1 (iblk1 V c 0 t) (iblk1 V c 1 t) (iblk1 V c 2 t) (iblk1 V c 3 t)
  Φ _ := Pipeline.ΦA spec1 c
  q w := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1 (iblk1 V c 0 t) (iblk1 V c 1 t) (iblk1 V c 2 t) (iblk1 V c 3 t) := by dsimp only [dat1]

/-- Input window 0's current staging buffer of region 1 holds its block at every point, fetched there or not, for
    any proof data whose array is `V`'s and whose body leaves the block in place: not fetched means the block index
    has not moved, so the buffer still holds the block; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer of region 1 holds its block at every point, fetched there or not, for
    any proof data whose array is `V`'s and whose body leaves the block in place: not fetched means the block index
    has not moved, so the buffer still holds the block; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer of region 1 holds its block at every point, fetched there or not, for
    any proof data whose array is `V`'s and whose body leaves the block in place: not fetched means the block index
    has not moved, so the buffer still holds the block; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer of region 1 holds its block at every point, fetched there or not, for
    any proof data whose array is `V`'s and whose body leaves the block in place: not fetched means the block index
    has not moved, so the buffer still holds the block; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Each input's current staging buffer holds its block at every point, for the region's own proof data. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`: the invariant, the core's dues, and each window's current staging
    buffer whole at what it then holds. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- What the body returns: the invariant and the dues at the next point, each buffer at what the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the four inputs' buffers hold their blocks, so the body's triple applies; the invariant
    and the core's dues do not depend on the point and pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of region 1, at every point: each input's current staging buffer holds its block there, so the
    body's triple applies; the invariant and the core's dues pass through unread. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KRegions.lean ====
/-
  The buffer contents at each boundary between @main's five items (host operations, region 0, host operations,
  region 1, host operations), every pipeline's proof data at its region's entry contents, and the two regions as
  segments over the thread state "every unscoped buffer at the boundary's contents, the generator register at some
  state, nothing owed". Region 0 hands ONE array (the second endpoint's gathered rows) to two input windows: at entry
  that array's buffer is split into two half shares, one per window, and at exit the halves are joined again.
-/
import proofs.«125321_j34136400068849_1_alg».proof.Proof.KData
import proofs.«125321_j34136400068849_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

/-! ## The buffer contents at each boundary -/

/-- Core `c`'s buffers at launch. -/
abbrev W0 : Dev nD → Valuation τ sig (Elt F) := fun c b => m (c, b)
/-- After the first stretch of host operations (region 0's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At region 0's exit: its output array at what the write-backs leave, every other buffer as entered. -/
def W2 (c : Dev nD) : Valuation τ sig (Elt F) :=
  Function.update (W1 m c) (Proc.devRef .tc main_v19) ((dat0 (V1 m) c).arrAt 4 cfg0.N)
/-- After the second stretch of host operations (region 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit. -/
def W4 (c : Dev nD) : Valuation τ sig (Elt F) :=
  Function.update (W3 m c) (Proc.devRef .tc main_v53) ((dat1 (V3 m) c).arrAt 4 cfg1.N)
/-- After the last stretch of host operations: the contents @main returns with. -/
abbrev W5 : Dev nD → Valuation τ sig (Elt F) := fun c => StableHlo.after hostOps2 (W4 m c)

theorem W2_out (c : Dev nD) : W2 m c (Proc.devRef .tc main_v19) = (dat0 (V1 m) c).arrAt 4 cfg0.N := by
  unfold W2; exact Function.update_self ..
theorem W2_of_ne (c : Dev nD) (b : Ref sig .tc) (hb : b ≠ main_v19) : W2 m c (Proc.devRef .tc b) = W1 m c (Proc.devRef .tc b) := by
  unfold W2; exact Function.update_of_ne (StableHlo.devRef_ne_of_ne hb) ..
theorem W4_out (c : Dev nD) : W4 m c (Proc.devRef .tc main_v53) = (dat1 (V3 m) c).arrAt 4 cfg1.N := by
  unfold W4; exact Function.update_self ..
theorem W4_of_ne (c : Dev nD) (b : Ref sig .tc) (hb : b ≠ main_v53) : W4 m c (Proc.devRef .tc b) = W3 m c (Proc.devRef .tc b) := by
  unfold W4; exact Function.update_of_ne (StableHlo.devRef_ne_of_ne hb) ..

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)

section Arrays0
variable (V : (c : Dev nD) → (b : Ref sig .tc) → Buf (Elt F) ((c : Thread nD τ).loc b))

/-! ## Region 0's arrays: four buffers dealt to five windows -/

/-- The distinct buffers behind region 0's five windows: windows 1 and 2 are on one array. -/
theorem img0 : Finset.univ.image (Pipeline.arrRef spec0) = ({main_v8, main_v17, main_v18, main_v19} : Finset (Ref sig .tc)) := by decide

/-- One window's array, a whole buffer, held at a share: the same as that buffer held whole at the share. -/
theorem arr0_piece (c : Dev nD) (V' : (b : Ref sig .tc) → Buf (Elt F) ((c : Thread nD τ).loc b))
    (Fw : (w : Fin cfg0.W) → Buf (Elt F) ((cfg0.win w).arr.view.loc (c : Thread nD τ)))
    (hF : ∀ w, Fw w = V' (Pipeline.arrRef spec0 w)) (w : Fin cfg0.W) (q : PosShare TreeShare) :
    ((cfg0.win w).arr.view.loc (c : Thread nD τ) ↦[(cfg0.win w).arr.view.set]{q} Fw w : sProp 𝕄)
      = ((c : Thread nD τ).loc (Pipeline.arrRef spec0 w) ↦{q} V' (Pipeline.arrRef spec0 w)) := by
  rw [(arr_whole0 w).set_eq_univ, hF w]

/-- The buffers behind region 0's arrays, one by one. -/
theorem arrBufs0_eq (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop(((c : Thread nD τ).loc main_v8 ↦{fullShare} V' main_v8) ∗ ((c : Thread nD τ).loc main_v17 ↦{fullShare} V' main_v17)
          ∗ ((c : Thread nD τ).loc main_v18 ↦{fullShare} V' main_v18) ∗ ((c : Thread nD τ).loc main_v19 ↦{fullShare} V' main_v19)) := by
  unfold Pipeline.arrBufs
  rw [img0, bigSep_insert (by decide), bigSep_insert (by decide), bigSep_insert (by decide), bigSep_singleton]
  rfl

/-- Region 0's five windows' arrays at contents read off a valuation, one by one: the array of windows 1 and 2 held half
    by each. -/
theorem arrays0_eq (c : Dev nD) (V' : (b : Ref sig .tc) → Buf (Elt F) ((c : Thread nD τ).loc b))
    (Fw : (w : Fin cfg0.W) → Buf (Elt F) ((cfg0.win w).arr.view.loc (c : Thread nD τ)))
    (hF : ∀ w, Fw w = V' (Pipeline.arrRef spec0 w)) :
    ((dat0 V c).arrays Fw : sProp 𝕄)
      = iprop(((c : Thread nD τ).loc main_v8 ↦{fullShare} V' main_v8) ∗ ((c : Thread nD τ).loc main_v17 ↦{fullShare.left} V' main_v17)
          ∗ ((c : Thread nD τ).loc main_v17 ↦{fullShare.right} V' main_v17)
          ∗ ((c : Thread nD τ).loc main_v18 ↦{fullShare} V' main_v18) ∗ ((c : Thread nD τ).loc main_v19 ↦{fullShare} V' main_v19)) := by
  unfold Pipeline.Dat.arrays
  rw [bigSep_W0, arr0_piece c V' Fw hF 0, arr0_piece c V' Fw hF 1, arr0_piece c V' Fw hF 2, arr0_piece c V' Fw hF 3,
    arr0_piece c V' Fw hF 4]
  rfl

/-- ENTRY: the four buffers whole make the five windows' arrays, the shared one split in two halves. -/
theorem arrays0_of_bufs (c : Dev nD) (V' : (b : Ref sig .tc) → Buf (Elt F) ((c : Thread nD τ).loc b))
    (Fw : (w : Fin cfg0.W) → Buf (Elt F) ((cfg0.win w).arr.view.loc (c : Thread nD τ)))
    (hF : ∀ w, Fw w = V' (Pipeline.arrRef spec0 w)) :
    (Pipeline.arrBufs (Ix := Unit) (Name := ℕ) (U := UR sig nD τ) (Lvl := ℕ) spec0 c V' : sProp 𝕄) ⊢ (dat0 V c).arrays Fw := by
  rw [arrBufs0_eq, arrays0_eq V c V' Fw hF]
  iintro ⟨H0, H1, H3, H4⟩
  ihave H12 := (pointsTo_share (PosShare.mem_left_op_right fullShare)).1 $$ H1
  icases H12 with ⟨H1, H2⟩
  isplitl [H0]; · iexact H0
  isplitl [H1]; · iexact H1
  isplitl [H2]; · iexact H2
  isplitl [H3]; · iexact H3
  iexact H4

/-- EXIT: the five windows' arrays, the two halves of the shared one at the same contents, make the four buffers whole. -/
theorem bufs_of_arrays0 (c : Dev nD) (V' : (b : Ref sig .tc) → Buf (Elt F) ((c : Thread nD τ).loc b))
    (Fw : (w : Fin cfg0.W) → Buf (Elt F) ((cfg0.win w).arr.view.loc (c : Thread nD τ)))
    (hF : ∀ w, Fw w = V' (Pipeline.arrRef spec0 w)) :
    ((dat0 V c).arrays Fw : sProp 𝕄) ⊢ Pipeline.arrBufs (Ix := Unit) (Name := ℕ) (U := UR sig nD τ) (Lvl := ℕ) spec0 c V' := by
  rw [arrBufs0_eq, arrays0_eq V c V' Fw hF]
  iintro ⟨H0, H1, H2, H3, H4⟩
  ihave H12 := (pointsTo_share (PosShare.mem_left_op_right fullShare)).2 $$ [H1 H2]
  · isplitl [H1]; · iexact H1
    iexact H2
  isplitl [H0]; · iexact H0
  isplitl [H12]; · iexact H12
  isplitl [H3]; · iexact H3
  iexact H4

end Arrays0

/-! ## Region 0's exit contents, array by array -/

/-- At region 0's exit each of its arrays holds what the pipeline leaves: the output array is the one updated; each
    input array is no other buffer than it was and the pipeline leaves an input's array as entered — so the two
    windows on one array end at the same contents. -/
theorem hF0 (c : Dev nD) (w : Fin cfg0.W) :
    (dat0 (V1 m) c).arrAt w cfg0.N = W2 m c (Proc.devRef .tc (Pipeline.arrRef spec0 w)) :=
  match w with
  | ⟨0, _⟩ => (((dat0 (V1 m) c).arrAt_in 0 rfl _).trans (A_eq0 (V1 m) c 0)).trans (W2_of_ne m c _ (by decide)).symm
  | ⟨1, _⟩ => (((dat0 (V1 m) c).arrAt_in 1 rfl _).trans (A_eq0 (V1 m) c 1)).trans (W2_of_ne m c _ (by decide)).symm
  | ⟨2, _⟩ => (((dat0 (V1 m) c).arrAt_in 2 rfl _).trans (A_eq0 (V1 m) c 2)).trans (W2_of_ne m c _ (by decide)).symm
  | ⟨3, _⟩ => (((dat0 (V1 m) c).arrAt_in 3 rfl _).trans (A_eq0 (V1 m) c 3)).trans (W2_of_ne m c _ (by decide)).symm
  | ⟨4, _⟩ => (W2_out m c).symm
/-- Every buffer that is no array of region 0 holds at its exit what it held at entry. -/
theorem hrest0 (c : Dev nD) : ∀ b : Ref sig .tc, b ∉ Finset.univ.image (Pipeline.arrRef spec0) →
    W2 m c (Proc.devRef .tc b) = W1 m c (Proc.devRef .tc b) :=
  fun b hb => W2_of_ne m c b fun e => hb (Finset.mem_image.mpr ⟨4, Finset.mem_univ _, e.symm⟩)

/-! ## Region 1's exit contents, array by array -/

/-- At region 1's exit each of its arrays holds what the pipeline leaves: the output array is the one updated; each
    input array is no other buffer than it was and the pipeline leaves an input's array as entered. -/
theorem hF1 (c : Dev nD) (w : Fin cfg1.W) :
    (dat1 (V3 m) c).arrAt w cfg1.N = W4 m c (Proc.devRef .tc (Pipeline.arrRef spec1 w)) :=
  match w with
  | ⟨0, _⟩ => (((dat1 (V3 m) c).arrAt_in 0 rfl _).trans (A_eq1 (V3 m) c 0)).trans (W4_of_ne m c _ (by decide)).symm
  | ⟨1, _⟩ => (((dat1 (V3 m) c).arrAt_in 1 rfl _).trans (A_eq1 (V3 m) c 1)).trans (W4_of_ne m c _ (by decide)).symm
  | ⟨2, _⟩ => (((dat1 (V3 m) c).arrAt_in 2 rfl _).trans (A_eq1 (V3 m) c 2)).trans (W4_of_ne m c _ (by decide)).symm
  | ⟨3, _⟩ => (((dat1 (V3 m) c).arrAt_in 3 rfl _).trans (A_eq1 (V3 m) c 3)).trans (W4_of_ne m c _ (by decide)).symm
  | ⟨4, _⟩ => (W4_out m c).symm
/-- Every buffer that is no array of region 1 holds at its exit what it held at entry. -/
theorem hrest1 (c : Dev nD) : ∀ b : Ref sig .tc, b ∉ Finset.univ.image (Pipeline.arrRef spec1) →
    W4 m c (Proc.devRef .tc b) = W3 m c (Proc.devRef .tc b) :=
  fun b hb => W4_of_ne m c b fun e => hb (Finset.mem_image.mpr ⟨4, Finset.mem_univ _, e.symm⟩)

/-! ## The regions as segments -/

set_option backward.isDefEq.respectTransparency.types false in
/-- REGION 0 over the thread state: entered from every unscoped buffer at `W1`, left at `W2`. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit : (unscopedBufs (Ix := Unit) (Name := ℕ) (U := UR sig nD τ) (Lvl := ℕ) c (V1 m c) : sProp 𝕄)
        ⊢ iprop((pdats m 0 c).arrays ((pdats m 0 c).arrAt · 0)
            ∗ Pipeline.unscopedRest (Ix := Unit) (Name := ℕ) (U := UR sig nD τ) (Lvl := ℕ) spec0 c (V1 m c)) := by
      rw [Pipeline.unscopedBufs_split₀ (Pipeline.pin (pcfgs (F := F)) adm) 0 winFacts₀0.arr_unscoped c (V1 m c)]
      exact sep_mono (arrays0_of_bufs (V1 m) c (V1 m c) _ fun _ => rfl) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N)
          ∗ Pipeline.unscopedRest (Ix := Unit) (Name := ℕ) (U := UR sig nD τ) (Lvl := ℕ) spec0 c (V1 m c))
        ⊢ (unscopedBufs (Ix := Unit) (Name := ℕ) (U := UR sig nD τ) (Lvl := ℕ) c (fun b => W2 m c b) : sProp 𝕄) := by
      rw [Pipeline.unscopedBufs_split₀ (Pipeline.pin (pcfgs (F := F)) adm) 0 winFacts₀0.arr_unscoped c (fun b => W2 m c b)]
      refine sep_mono (bufs_of_arrays0 (V1 m) c (fun b => W2 m c b) _ (hF0 m c)) (Entails.of_eq ?_)
      unfold Pipeline.unscopedRest
      exact bigSep_congr fun b hb => by beta_reduce; rw [hrest0 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (fun b => W4 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KRun.lean ====
/-
  @main's run: from any launch memory with zero counters every weakly fair execution of @main terminates, nothing
  faulting, and every unscoped buffer ends at the last boundary's contents `W5`. Read at the result's buffer this names
  what @main returns; read at an argument's buffer, which no host operation writes and no region may change, it gives the
  launch contents back.
-/
import proofs.«125321_j34136400068849_1_alg».proof.Proof.KRegions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## @main as segments -/

/-- A host stretch as a segment: its operations over the unscoped references from the contents `W`, `R` riding along;
    it ends with those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The last thread state without the dues (the chain ends at it BESIDE the core owing nothing): every unscoped buffer
    at the last boundary's contents `W5`, the generator register at some state. -/
abbrev Tₙ (c : Dev nD) : sProp 𝕄 := iprop(StableHlo.held (c : Thread nD τ) (Pipeline.ucRefs τ sig) (W5 m c) ∗ ∃ r, prngReg c r)

/-- @main's five segments in order: a host segment per stretch from its boundary's contents, a region per kernel call. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last segment's thread state is `Tₙ` beside the core owing nothing: the same three resources, regrouped. -/
theorem last_split (c : Dev nD) : iprop(StableHlo.held (c : Thread nD τ) (Pipeline.ucRefs τ sig) (W5 m c) ∗ R c)
    ⊢ (iprop(Tₙ m c ∗ ∃ W, owes (c : Thread nD τ) (0 : CellTallies nD τ sig Unit) W) : sProp 𝕄) := by
  iintro ⟨Hh, Hp, HO⟩
  isplitr [HO]
  · isplitl [Hh]; · iexact Hh
    iexact Hp
  iexact HO

set_option backward.isDefEq.respectTransparency.types false in
/-- THE RUN, every unscoped buffer named. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => last_split m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-! ## The arguments through the fold -/

/-- An argument's buffer at the last boundary holds its launch contents. -/
theorem W5_arg (c : Dev nD) (r : Ref sig .tc) (h0 : r ∉ hostOps0_W) (h1 : r ∉ hostOps1_W) (h2 : r ∉ hostOps2_W)
    (h19 : r ≠ main_v19) (h53 : r ≠ main_v53) : W5 m c (Proc.devRef .tc r) = m ((c : Thread nD τ).loc r) :=
  (StableHlo.after_of_writes_sub hostOps2 _ hostOps2_writes h2).trans <|
    (W4_of_ne m c r h53).trans <|
      (StableHlo.after_of_writes_sub hostOps1 _ hostOps1_writes h1).trans <|
        (W2_of_ne m c r h19).trans <|
          (StableHlo.after_of_writes_sub hostOps0 _ hostOps0_writes h0).trans rfl

/-- The run with the result's buffer and the five arguments' read off. -/
theorem run_value : θ_run defs (onTc (τ := τ) (main (F := F))) ⟨m, fun _ => 0, ρ⟩ (fun r => ∀ c : Dev nD,
      r.2.mem ((c.tc : Thread nD τ).loc main_v58) = W5 m c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨h c _ (mem_uc main_v58 (by decide)),
      (h c _ (mem_uc main_arg0 (by decide))).trans (W5_arg m c main_arg0 (by decide) (by decide) (by decide) (by decide) (by decide)),
      (h c _ (mem_uc main_arg1 (by decide))).trans (W5_arg m c main_arg1 (by decide) (by decide) (by decide) (by decide) (by decide)),
      (h c _ (mem_uc main_arg2 (by decide))).trans (W5_arg m c main_arg2 (by decide) (by decide) (by decide) (by decide) (by decide)),
      (h c _ (mem_uc main_arg3 (by decide))).trans (W5_arg m c main_arg3 (by decide) (by decide) (by decide) (by decide) (by decide)),
      (h c _ (mem_uc main_arg4 (by decide))).trans (W5_arg m c main_arg4 (by decide) (by decide) (by decide) (by decide) (by decide))⟩)
    (run_main m ρ)

end Cert.KernelIdeal.Hand

end
-- ==== Proof.Spec.lean ====
/-
  The per-edge message both programs compute, as a function of one edge's two embedding rows, the
  column value and the edge's base weight, on the extended reals:
    dot a b      = Σ_k a_k · b_k                       (k over the 64 features)
    nrm a        = max (√(dot a a)) ε                  (ε the f32 word 0x322BCC77)
    sim a b      = dot a b / (nrm a · nrm b)
    simNorm a b  = min 1 (max 0 ((sim a b + 1) · ½))
    refine a b w = w · (1 + α · simNorm a b)           (α the f32 word 0x3DCCCCCD)
    msg a b x w  = refine a b w · x
  The float literals stay as their words: the same word on both sides is never evaluated.
-/
import Idealize.ShloMosaic.PureOps.Ideal
import Idealize.ShloMosaic.Lib.ValueIdx

noncomputable section

namespace Cert.Spec

open Idealize.ShloMosaic

/-- The sum over the 64 features of the entrywise product of two rows. -/
def dot (a b : Fin 64 → EReal) : EReal := ∑ k : Fin 64, a k * b k

/-- A row's Euclidean norm, floored at the word ε. -/
def nrm (a : Fin 64 → EReal) : EReal := max (Ideal.sqrt (dot a a)) (Ideal.ofBits .f32 0x322BCC77#32)

/-- The cosine similarity of two rows, with floored norms. -/
def sim (a b : Fin 64 → EReal) : EReal := Ideal.div (dot a b) (nrm a * nrm b)

/-- The similarity moved to [0, 1] and clipped there. -/
def simNorm (a b : Fin 64 → EReal) : EReal :=
  min (Ideal.ofBits .f32 0x3F800000#32)
    (max (Ideal.ofBits .f32 0x00000000#32)
      ((sim a b + Ideal.ofBits .f32 0x3F800000#32) * Ideal.ofBits .f32 0x3F000000#32))

/-- The edge's refined weight. -/
def refine (a b : Fin 64 → EReal) (w : EReal) : EReal :=
  w * (Ideal.ofBits .f32 0x3F800000#32 + Ideal.ofBits .f32 0x3DCCCCCD#32 * simNorm a b)

/-- The edge's message at one feature: the refined weight times the column value there. -/
def msg (a b : Fin 64 → EReal) (x w : EReal) : EReal := refine a b w * x

open Idealize.ShloMosaic.ValueIdx

/-- The per-edge arrays' shapes: 800000 edges by 64 features, and the keepdims column. -/
abbrev SE64 : Shape := ⟨2, ![800000, 64]⟩
abbrev SE1 : Shape := ⟨2, ![800000, 1]⟩

/-- The whole array of messages from the whole arrays of the edges' rows: entry (e, q) is the message of edge e's two
    embedding rows, its column value at feature q and its base weight. -/
def regionFn (A B X : SE64.Idx → EReal) (Bs : SE1.Idx → EReal) : SE64.Idx → EReal :=
  fun i => msg (fun k => A (ix2 (i 0 : Fin 800000) k)) (fun k => B (ix2 (i 0 : Fin 800000) k)) (X i)
    (Bs (ix2 (i 0 : Fin 800000) (0 : Fin 1)))

theorem regionFn_apply (A B X : SE64.Idx → EReal) (Bs : SE1.Idx → EReal) (e : Fin 800000) (q : Fin 64) :
    regionFn A B X Bs (ix2 e q) = msg (fun k => A (ix2 e k)) (fun k => B (ix2 e k)) (X (ix2 e q)) (Bs (ix2 e 0)) := rfl

end Cert.Spec

end
-- ==== Proof.LibKeepdims.lean ====
/-
  A keepdims column, a column laid along the features, and a sum along the features, each read at an index given by
  coordinates; and the square root read at an index. General over the extents: nothing here names a kernel.

  A row-wise normalisation sums an `[a, b]` array along its second axis into `[a]`, keeps the dropped axis as a unit one
  (`[a]` → `[a, 1]`, a shape cast), computes on the column, and lays the column back along the `b` features
  (`[a, 1]` → `[a, b]`, a broadcast). Read at `(p, c)` these three are: the vector at `p`; the column at `(p, 0)`; the sum
  over `k` of the array's entries `(p, k)`.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibKeepdims

open Idealize.ShloMosaic Idealize.ShloMosaic.ValueIdx
open scoped BigOperators

section Layout
variable {α : Type}

/-- An `[a]` vector cast to the column `[a, 1]` reads, at `(p, u)`, the vector at `p`, whatever the unit coordinate `u`:
    both positions are `p` in row-major order. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- At the ideal values the f32 sum along the second axis of an `[a, b]` array, its accumulator the zero word (the sum's
    neutral element, which the reading drops), is at row `p` the sum over the `b` entries of that row: the index the
    reduction inserts coordinate `k` into, over `p`, is `(p, k)`. -/
theorem laneSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src ?_
  funext d
  apply Fin.ext
  match d with
  | ⟨0, _⟩ => rfl
  | ⟨1, _⟩ => rfl

/-- A square root at an index is the ideal square root of the element. -/
theorem sqrt_apply {s : Shape} {φ : FTy} (a : FVec Ideal s φ) (i : s.Idx) : sqrt a i = Ideal.sqrt (a i) := rfl

end Cert.LibKeepdims

end
-- ==== Proof.KPayload.lean ====
/-
  The body's payload read at one entry of the block: row p, feature q of what the kernel stores is the message of
  row p of the two embedding blocks, the column value at (p, q) and the base weight of row p.

  Every operation of the payload but three is entrywise, so it reads through an index as it stands. The three that move
  data — the keepdims column, the column laid along the features, the sum along the features — are read by the lemmas
  of LibKeepdims.lean. After them the payload at (p, q) and the message are the same tree of extended-real operations
  over the same words.
-/
import proofs.«125321_j34136400068849_1_alg».proof.Proof.Gen.KernelIdeal.Skeleton
import proofs.«125321_j34136400068849_1_alg».proof.Proof.Spec
import proofs.«125321_j34136400068849_1_alg».proof.Proof.LibKeepdims
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen
open Idealize.ShloMosaic Idealize.ShloMosaic.ValueIdx
open Cert.LibKeepdims

/-- Kernel 0's payload at entry (p, q). Argument order of the payload: first embedding block, second embedding block,
    base weights, column values. -/
theorem pay0_apply (x0 x1 x2 : Vec Ideal S8000x64 .f32) (x3 : Vec Ideal S8000x1 .f32) (p : Fin 8000) (q : Fin 64) :
    k0_pay1 (F := Ideal) x0 x1 x3 x2 (ix2 p q)
      = Cert.Spec.msg (fun k => x0 (ix2 p k)) (fun k => x1 (ix2 p k)) (x2 (ix2 p q)) (x3 (ix2 p 0)) := by
  unfold k0_pay1
  simp only [shapeCast_self, mulf_apply, addf_apply, divf_apply, maximumf_apply, minimumf_apply, sqrt_apply,
    broadcast_apply, broadcastTo_a1_ab_apply, shapeCast_a_a1_apply]
  rw [laneSum_apply (mulf x0 x1), laneSum_apply (mulf x0 x0), laneSum_apply (mulf x1 x1)]
  simp only [mulf_apply]
  rfl

/-- The same for kernel 1. -/
theorem pay1_apply (x0 x1 x2 : Vec Ideal S8000x64 .f32) (x3 : Vec Ideal S8000x1 .f32) (p : Fin 8000) (q : Fin 64) :
    k1_pay1 (F := Ideal) x0 x1 x3 x2 (ix2 p q)
      = Cert.Spec.msg (fun k => x0 (ix2 p k)) (fun k => x1 (ix2 p k)) (x2 (ix2 p q)) (x3 (ix2 p 0)) := by
  unfold k1_pay1
  simp only [shapeCast_self, mulf_apply, addf_apply, divf_apply, maximumf_apply, minimumf_apply, sqrt_apply,
    broadcast_apply, broadcastTo_a1_ab_apply, shapeCast_a_a1_apply]
  rw [laneSum_apply (mulf x0 x1), laneSum_apply (mulf x0 x0), laneSum_apply (mulf x1 x1)]
  simp only [mulf_apply]
  rfl

end Cert.KernelIdeal.Hand

end
-- ==== Proof.KValue.lean ====
/-
  What each kernel region leaves in its output array, as one function of the arrays it was entered with: grid point t
  writes back block t — rows 8000·t … 8000·t + 7999 — of the array of messages (the payload of the four input blocks
  there, read entry by entry), the 100 blocks cover the 800000 rows, so after the last point the array IS `regionFn`
  of the four input arrays.
-/
import proofs.«125321_j34136400068849_1_alg».proof.Proof.KData
import proofs.«125321_j34136400068849_1_alg».proof.Proof.KPayload
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt Ideal) ((c : Thread nD τ).loc b))

/-- The zero offset of a whole-block rectangle, as the constant function. -/
theorem hz : (![0, 0] : Fin 2 → Nat) = fun _ => 0 := funext fun a => by fin_cases a <;> rfl

/-- Every window's block index of region 0 at point `t` is (t, 0): decided once over the grid. -/
theorem index0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Region 0's input window 0: entry x of its block at point `t` is the array's entry at row 8000·t + (row of x), same column. -/
theorem iblk0_0_apply (c : Dev nD) (t : Fin cfg0.N) (x : S8000x64.Idx) (i : S800000x64.Idx)
    (hi0 : (i 0).val = 8000 * t.val + (x 0).val) (hi1 : (i 1).val = (x 1).val) :
    (iblk0 V c 0 t : Vec Ideal S8000x64 .f32) x = (V c main_v8 : S800000x64.Idx → EReal) i := by
  obtain ⟨e0, e1, -⟩ := index0 t
  unfold iblk0
  rw [View.read_apply]
  show V c main_v8 _ = V c main_v8 _
  congr 1
  funext a
  apply Fin.ext
  match a with
  | ⟨0, _⟩ => show win0_0.index t 0 * 8000 + 1 * (x 0).val = (i 0).val; rw [e0, hi0]; omega
  | ⟨1, _⟩ => show win0_0.index t 1 * 64 + 1 * (x 1).val = (i 1).val; rw [e1, hi1]; omega

/-- Region 0's input window 1: entry x of its block at point `t` is the array's entry at row 8000·t + (row of x), same column. -/
theorem iblk0_1_apply (c : Dev nD) (t : Fin cfg0.N) (x : S8000x64.Idx) (i : S800000x64.Idx)
    (hi0 : (i 0).val = 8000 * t.val + (x 0).val) (hi1 : (i 1).val = (x 1).val) :
    (iblk0 V c 1 t : Vec Ideal S8000x64 .f32) x = (V c main_v17 : S800000x64.Idx → EReal) i := by
  obtain ⟨-, -, e0, e1, -⟩ := index0 t
  unfold iblk0
  rw [View.read_apply]
  show V c main_v17 _ = V c main_v17 _
  congr 1
  funext a
  apply Fin.ext
  match a with
  | ⟨0, _⟩ => show win0_1.index t 0 * 8000 + 1 * (x 0).val = (i 0).val; rw [e0, hi0]; omega
  | ⟨1, _⟩ => show win0_1.index t 1 * 64 + 1 * (x 1).val = (i 1).val; rw [e1, hi1]; omega

/-- Region 0's input window 2: entry x of its block at point `t` is the array's entry at row 8000·t + (row of x), same column. -/
theorem iblk0_2_apply (c : Dev nD) (t : Fin cfg0.N) (x : S8000x64.Idx) (i : S800000x64.Idx)
    (hi0 : (i 0).val = 8000 * t.val + (x 0).val) (hi1 : (i 1).val = (x 1).val) :
    (iblk0 V c 2 t : Vec Ideal S8000x64 .f32) x = (V c main_v17 : S800000x64.Idx → EReal) i := by
  obtain ⟨-, -, -, -, e0, e1, -⟩ := index0 t
  unfold iblk0
  rw [View.read_apply]
  show V c main_v17 _ = V c main_v17 _
  congr 1
  funext a
  apply Fin.ext
  match a with
  | ⟨0, _⟩ => show win0_2.index t 0 * 8000 + 1 * (x 0).val = (i 0).val; rw [e0, hi0]; omega
  | ⟨1, _⟩ => show win0_2.index t 1 * 64 + 1 * (x 1).val = (i 1).val; rw [e1, hi1]; omega

/-- Region 0's input window 3: entry x of its block at point `t` is the array's entry at row 8000·t + (row of x), same column. -/
theorem iblk0_3_apply (c : Dev nD) (t : Fin cfg0.N) (x : S8000x1.Idx) (i : S800000x1.Idx)
    (hi0 : (i 0).val = 8000 * t.val + (x 0).val) (hi1 : (i 1).val = (x 1).val) :
    (iblk0 V c 3 t : Vec Ideal S8000x1 .f32) x = (V c main_v18 : S800000x1.Idx → EReal) i := by
  obtain ⟨-, -, -, -, -, -, e0, e1, -⟩ := index0 t
  unfold iblk0
  rw [View.read_apply]
  show V c main_v18 _ = V c main_v18 _
  congr 1
  funext a
  apply Fin.ext
  match a with
  | ⟨0, _⟩ => show win0_3.index t 0 * 8000 + 1 * (x 0).val = (i 0).val; rw [e0, hi0]; omega
  | ⟨1, _⟩ => show win0_3.index t 1 * 1 + 1 * (x 1).val = (i 1).val; rw [e1, hi1]; omega

/-- The body's payload of the four blocks of point `t`, at entry (p, q), is the message of row e = 8000·t + p of the four
    arrays at feature q: the payload at an entry is the message of the blocks' rows, and each block's row p is its array's row e. -/
theorem payload0_point (c : Dev nD) (t : Fin cfg0.N) (p : Fin 8000) (q : Fin 64) (e : Fin 800000) (he : e.val = 8000 * t.val + p.val) :
    k0_pay1 (F := Ideal) (iblk0 V c 0 t) (iblk0 V c 1 t) (iblk0 V c 3 t) (iblk0 V c 2 t) (ix2 p q)
      = Cert.Spec.regionFn (V c main_v8) (V c main_v17) (V c main_v17) (V c main_v18) (ix2 e q) := by
  refine (pay0_apply (iblk0 V c 0 t) (iblk0 V c 1 t) (iblk0 V c 2 t) (iblk0 V c 3 t) p q).trans ?_
  rw [Cert.Spec.regionFn_apply]
  have h0 : (fun k : Fin 64 => (iblk0 V c 0 t : Vec Ideal S8000x64 .f32) (ix2 p k)) = fun k => (V c main_v8 : S800000x64.Idx → EReal) (ix2 e k) :=
    funext fun k => iblk0_0_apply V c t (ix2 p k) (ix2 e k) he rfl
  have h1 : (fun k : Fin 64 => (iblk0 V c 1 t : Vec Ideal S8000x64 .f32) (ix2 p k)) = fun k => (V c main_v17 : S800000x64.Idx → EReal) (ix2 e k) :=
    funext fun k => iblk0_1_apply V c t (ix2 p k) (ix2 e k) he rfl
  have h2 : (iblk0 V c 2 t : Vec Ideal S8000x64 .f32) (ix2 p q) = (V c main_v17 : S800000x64.Idx → EReal) (ix2 e q) :=
    iblk0_2_apply V c t (ix2 p q) (ix2 e q) he rfl
  have h3 : (iblk0 V c 3 t : Vec Ideal S8000x1 .f32) (ix2 p (0 : Fin 1)) = (V c main_v18 : S800000x1.Idx → EReal) (ix2 e (0 : Fin 1)) :=
    iblk0_3_apply V c t (ix2 p (0 : Fin 1)) (ix2 e (0 : Fin 1)) he rfl
  rw [h0, h1, h2, h3]

/-- What point `t` writes back is block `t` of the array of messages of the four arrays as the region finds them. -/
theorem flushed0_eq (c : Dev nD) (t : Fin cfg0.N) :
    (dat0 (F := Ideal) V c).flushed 4 t
      = ((cfg0.win 4).blk t).view.read (Elt Ideal) (Cert.Spec.regionFn (V c main_v8) (V c main_v17) (V c main_v17) (V c main_v18)) := by
  show (cfg0.win 4).cut (grid0.coords t) ((dat0 V c).after 4 t) = _
  rw [after0_4]
  unfold out0
  rw [View.canon_unit_zero hz]
  simp only [View.ld_unit_zero (S := S8000x64) hz, View.ld_unit_zero (S := S8000x1) hz]
  obtain ⟨-, -, -, -, -, -, -, -, e0, e1⟩ := index0 t
  have ht : t.val < 100 := lt_of_lt_of_eq t.isLt N_0
  refine funext fun (y : S8000x64.Idx) => ?_
  obtain ⟨p, q, rfl⟩ : ∃ (p : Fin 8000) (q : Fin 64), y = ix2 p q := ⟨y 0, y 1, eq_ix2 y⟩
  have hp : p.val < 8000 := p.isLt
  have hemb : ((cfg0.win 4).blk t).view.emb (ix2 p q) = (ix2 (⟨8000 * t.val + p.val, by omega⟩ : Fin 800000) q : S800000x64.Idx) := by
    funext a
    apply Fin.ext
    match a with
    | ⟨0, _⟩ => show win0_4.index t 0 * 8000 + 1 * p.val = 8000 * t.val + p.val; rw [e0]; omega
    | ⟨1, _⟩ => show win0_4.index t 1 * 64 + 1 * q.val = q.val; rw [e1]; omega
  show k0_pay1 (F := Ideal) (iblk0 V c 0 t) (iblk0 V c 1 t) (iblk0 V c 3 t) (iblk0 V c 2 t) (ix2 p q)
    = Cert.Spec.regionFn (V c main_v8) (V c main_v17) (V c main_v17) (V c main_v18) (((cfg0.win 4).blk t).view.emb (ix2 p q))
  rw [hemb]
  exact payload0_point V c t p q _ rfl

/-- An entry of the output array is in point `t`'s block iff each coordinate is in the block's range on its axis. -/
theorem mem_blk0 (t : Fin cfg0.N) (i : S800000x64.Idx) :
    i ∈ ((cfg0.win 4).blk t).view.set ↔ ∀ a : Fin 2, win0_4.index t a * S8000x64.size a ≤ (i a).val ∧ (i a).val < win0_4.index t a * S8000x64.size a + S8000x64.size a := by
  show i ∈ ((View.whole main_v19).slice (win0_4.rect t)).set ↔ _
  rw [View.set_slice_whole, Rect.mem_set_unit]
  exact Iff.rfl

/-- Every entry of the output array is in some point's block: row r is in the block of point r / 8000. -/
theorem cover0 (i : S800000x64.Idx) : ∃ t : Fin cfg0.N, (cfg0.win 4).flush t = true ∧ i ∈ ((cfg0.win 4).blk t).view.set := by
  have hi0 : (i 0).val < 800000 := (i 0).isLt
  have hi1 : (i 1).val < 64 := (i 1).isLt
  have hN : cfg0.N = 100 := N_0
  obtain ⟨t, ht⟩ : ∃ t : Fin cfg0.N, t.val = (i 0).val / 8000 := ⟨⟨(i 0).val / 8000, by rw [hN]; omega⟩, rfl⟩
  obtain ⟨-, -, -, -, -, -, -, -, e0, e1⟩ := index0 t
  refine ⟨t, flush0_4 t, ?_⟩
  rw [mem_blk0]
  intro a
  match a with
  | ⟨0, _⟩ => show win0_4.index t (0 : Fin 2) * 8000 ≤ (i 0).val ∧ (i 0).val < win0_4.index t (0 : Fin 2) * 8000 + 8000; rw [e0, ht]; omega
  | ⟨1, _⟩ => show win0_4.index t (1 : Fin 2) * 64 ≤ (i 1).val ∧ (i 1).val < win0_4.index t (1 : Fin 2) * 64 + 64; rw [e1]; omega

/-- Region 0's output array after the last grid point. -/
theorem arrAt0 (c : Dev nD) :
    (dat0 (F := Ideal) V c).arrAt 4 cfg0.N
      = Cert.Spec.regionFn (V c main_v8) (V c main_v17) (V c main_v17) (V c main_v18) :=
  (dat0 (F := Ideal) V c).arrAt_eq_of_cover 4 (Cert.Spec.regionFn (V c main_v8) (V c main_v17) (V c main_v17) (V c main_v18))
    (fun t _ => flushed0_eq V c t) cover0

/-- Every window's block index of region 1 at point `t` is (t, 0): decided once over the grid. -/
theorem index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- Region 1's input window 0: entry x of its block at point `t` is the array's entry at row 8000·t + (row of x), same column. -/
theorem iblk1_0_apply (c : Dev nD) (t : Fin cfg1.N) (x : S8000x64.Idx) (i : S800000x64.Idx)
    (hi0 : (i 0).val = 8000 * t.val + (x 0).val) (hi1 : (i 1).val = (x 1).val) :
    (iblk1 V c 0 t : Vec Ideal S8000x64 .f32) x = (V c main_v33 : S800000x64.Idx → EReal) i := by
  obtain ⟨e0, e1, -⟩ := index1 t
  unfold iblk1
  rw [View.read_apply]
  show V c main_v33 _ = V c main_v33 _
  congr 1
  funext a
  apply Fin.ext
  match a with
  | ⟨0, _⟩ => show win1_0.index t 0 * 8000 + 1 * (x 0).val = (i 0).val; rw [e0, hi0]; omega
  | ⟨1, _⟩ => show win1_0.index t 1 * 64 + 1 * (x 1).val = (i 1).val; rw [e1, hi1]; omega

/-- Region 1's input window 1: entry x of its block at point `t` is the array's entry at row 8000·t + (row of x), same column. -/
theorem iblk1_1_apply (c : Dev nD) (t : Fin cfg1.N) (x : S8000x64.Idx) (i : S800000x64.Idx)
    (hi0 : (i 0).val = 8000 * t.val + (x 0).val) (hi1 : (i 1).val = (x 1).val) :
    (iblk1 V c 1 t : Vec Ideal S8000x64 .f32) x = (V c main_v42 : S800000x64.Idx → EReal) i := by
  obtain ⟨-, -, e0, e1, -⟩ := index1 t
  unfold iblk1
  rw [View.read_apply]
  show V c main_v42 _ = V c main_v42 _
  congr 1
  funext a
  apply Fin.ext
  match a with
  | ⟨0, _⟩ => show win1_1.index t 0 * 8000 + 1 * (x 0).val = (i 0).val; rw [e0, hi0]; omega
  | ⟨1, _⟩ => show win1_1.index t 1 * 64 + 1 * (x 1).val = (i 1).val; rw [e1, hi1]; omega

/-- Region 1's input window 2: entry x of its block at point `t` is the array's entry at row 8000·t + (row of x), same column. -/
theorem iblk1_2_apply (c : Dev nD) (t : Fin cfg1.N) (x : S8000x64.Idx) (i : S800000x64.Idx)
    (hi0 : (i 0).val = 8000 * t.val + (x 0).val) (hi1 : (i 1).val = (x 1).val) :
    (iblk1 V c 2 t : Vec Ideal S8000x64 .f32) x = (V c main_v51 : S800000x64.Idx → EReal) i := by
  obtain ⟨-, -, -, -, e0, e1, -⟩ := index1 t
  unfold iblk1
  rw [View.read_apply]
  show V c main_v51 _ = V c main_v51 _
  congr 1
  funext a
  apply Fin.ext
  match a with
  | ⟨0, _⟩ => show win1_2.index t 0 * 8000 + 1 * (x 0).val = (i 0).val; rw [e0, hi0]; omega
  | ⟨1, _⟩ => show win1_2.index t 1 * 64 + 1 * (x 1).val = (i 1).val; rw [e1, hi1]; omega

/-- Region 1's input window 3: entry x of its block at point `t` is the array's entry at row 8000·t + (row of x), same column. -/
theorem iblk1_3_apply (c : Dev nD) (t : Fin cfg1.N) (x : S8000x1.Idx) (i : S800000x1.Idx)
    (hi0 : (i 0).val = 8000 * t.val + (x 0).val) (hi1 : (i 1).val = (x 1).val) :
    (iblk1 V c 3 t : Vec Ideal S8000x1 .f32) x = (V c main_v52 : S800000x1.Idx → EReal) i := by
  obtain ⟨-, -, -, -, -, -, e0, e1, -⟩ := index1 t
  unfold iblk1
  rw [View.read_apply]
  show V c main_v52 _ = V c main_v52 _
  congr 1
  funext a
  apply Fin.ext
  match a with
  | ⟨0, _⟩ => show win1_3.index t 0 * 8000 + 1 * (x 0).val = (i 0).val; rw [e0, hi0]; omega
  | ⟨1, _⟩ => show win1_3.index t 1 * 1 + 1 * (x 1).val = (i 1).val; rw [e1, hi1]; omega

/-- The body's payload of the four blocks of point `t`, at entry (p, q), is the message of row e = 8000·t + p of the four
    arrays at feature q: the payload at an entry is the message of the blocks' rows, and each block's row p is its array's row e. -/
theorem payload1_point (c : Dev nD) (t : Fin cfg1.N) (p : Fin 8000) (q : Fin 64) (e : Fin 800000) (he : e.val = 8000 * t.val + p.val) :
    k1_pay1 (F := Ideal) (iblk1 V c 0 t) (iblk1 V c 1 t) (iblk1 V c 3 t) (iblk1 V c 2 t) (ix2 p q)
      = Cert.Spec.regionFn (V c main_v33) (V c main_v42) (V c main_v51) (V c main_v52) (ix2 e q) := by
  refine (pay1_apply (iblk1 V c 0 t) (iblk1 V c 1 t) (iblk1 V c 2 t) (iblk1 V c 3 t) p q).trans ?_
  rw [Cert.Spec.regionFn_apply]
  have h0 : (fun k : Fin 64 => (iblk1 V c 0 t : Vec Ideal S8000x64 .f32) (ix2 p k)) = fun k => (V c main_v33 : S800000x64.Idx → EReal) (ix2 e k) :=
    funext fun k => iblk1_0_apply V c t (ix2 p k) (ix2 e k) he rfl
  have h1 : (fun k : Fin 64 => (iblk1 V c 1 t : Vec Ideal S8000x64 .f32) (ix2 p k)) = fun k => (V c main_v42 : S800000x64.Idx → EReal) (ix2 e k) :=
    funext fun k => iblk1_1_apply V c t (ix2 p k) (ix2 e k) he rfl
  have h2 : (iblk1 V c 2 t : Vec Ideal S8000x64 .f32) (ix2 p q) = (V c main_v51 : S800000x64.Idx → EReal) (ix2 e q) :=
    iblk1_2_apply V c t (ix2 p q) (ix2 e q) he rfl
  have h3 : (iblk1 V c 3 t : Vec Ideal S8000x1 .f32) (ix2 p (0 : Fin 1)) = (V c main_v52 : S800000x1.Idx → EReal) (ix2 e (0 : Fin 1)) :=
    iblk1_3_apply V c t (ix2 p (0 : Fin 1)) (ix2 e (0 : Fin 1)) he rfl
  rw [h0, h1, h2, h3]

/-- What point `t` writes back is block `t` of the array of messages of the four arrays as the region finds them. -/
theorem flushed1_eq (c : Dev nD) (t : Fin cfg1.N) :
    (dat1 (F := Ideal) V c).flushed 4 t
      = ((cfg1.win 4).blk t).view.read (Elt Ideal) (Cert.Spec.regionFn (V c main_v33) (V c main_v42) (V c main_v51) (V c main_v52)) := by
  show (cfg1.win 4).cut (grid1.coords t) ((dat1 V c).after 4 t) = _
  rw [after1_4]
  unfold out1
  rw [View.canon_unit_zero hz]
  simp only [View.ld_unit_zero (S := S8000x64) hz, View.ld_unit_zero (S := S8000x1) hz]
  obtain ⟨-, -, -, -, -, -, -, -, e0, e1⟩ := index1 t
  have ht : t.val < 100 := lt_of_lt_of_eq t.isLt N_1
  refine funext fun (y : S8000x64.Idx) => ?_
  obtain ⟨p, q, rfl⟩ : ∃ (p : Fin 8000) (q : Fin 64), y = ix2 p q := ⟨y 0, y 1, eq_ix2 y⟩
  have hp : p.val < 8000 := p.isLt
  have hemb : ((cfg1.win 4).blk t).view.emb (ix2 p q) = (ix2 (⟨8000 * t.val + p.val, by omega⟩ : Fin 800000) q : S800000x64.Idx) := by
    funext a
    apply Fin.ext
    match a with
    | ⟨0, _⟩ => show win1_4.index t 0 * 8000 + 1 * p.val = 8000 * t.val + p.val; rw [e0]; omega
    | ⟨1, _⟩ => show win1_4.index t 1 * 64 + 1 * q.val = q.val; rw [e1]; omega
  show k1_pay1 (F := Ideal) (iblk1 V c 0 t) (iblk1 V c 1 t) (iblk1 V c 3 t) (iblk1 V c 2 t) (ix2 p q)
    = Cert.Spec.regionFn (V c main_v33) (V c main_v42) (V c main_v51) (V c main_v52) (((cfg1.win 4).blk t).view.emb (ix2 p q))
  rw [hemb]
  exact payload1_point V c t p q _ rfl

/-- An entry of the output array is in point `t`'s block iff each coordinate is in the block's range on its axis. -/
theorem mem_blk1 (t : Fin cfg1.N) (i : S800000x64.Idx) :
    i ∈ ((cfg1.win 4).blk t).view.set ↔ ∀ a : Fin 2, win1_4.index t a * S8000x64.size a ≤ (i a).val ∧ (i a).val < win1_4.index t a * S8000x64.size a + S8000x64.size a := by
  show i ∈ ((View.whole main_v53).slice (win1_4.rect t)).set ↔ _
  rw [View.set_slice_whole, Rect.mem_set_unit]
  exact Iff.rfl

/-- Every entry of the output array is in some point's block: row r is in the block of point r / 8000. -/
theorem cover1 (i : S800000x64.Idx) : ∃ t : Fin cfg1.N, (cfg1.win 4).flush t = true ∧ i ∈ ((cfg1.win 4).blk t).view.set := by
  have hi0 : (i 0).val < 800000 := (i 0).isLt
  have hi1 : (i 1).val < 64 := (i 1).isLt
  have hN : cfg1.N = 100 := N_1
  obtain ⟨t, ht⟩ : ∃ t : Fin cfg1.N, t.val = (i 0).val / 8000 := ⟨⟨(i 0).val / 8000, by rw [hN]; omega⟩, rfl⟩
  obtain ⟨-, -, -, -, -, -, -, -, e0, e1⟩ := index1 t
  refine ⟨t, flush1_4 t, ?_⟩
  rw [mem_blk1]
  intro a
  match a with
  | ⟨0, _⟩ => show win1_4.index t (0 : Fin 2) * 8000 ≤ (i 0).val ∧ (i 0).val < win1_4.index t (0 : Fin 2) * 8000 + 8000; rw [e0, ht]; omega
  | ⟨1, _⟩ => show win1_4.index t (1 : Fin 2) * 64 ≤ (i 1).val ∧ (i 1).val < win1_4.index t (1 : Fin 2) * 64 + 64; rw [e1]; omega

/-- Region 1's output array after the last grid point. -/
theorem arrAt1 (c : Dev nD) :
    (dat1 (F := Ideal) V c).arrAt 4 cfg1.N
      = Cert.Spec.regionFn (V c main_v33) (V c main_v42) (V c main_v51) (V c main_v52) :=
  (dat1 (F := Ideal) V c).arrAt_eq_of_cover 4 (Cert.Spec.regionFn (V c main_v33) (V c main_v42) (V c main_v51) (V c main_v52))
    (fun t _ => flushed1_eq V c t) cover1

end Cert.KernelIdeal.Hand

end
-- ==== Proof.HostSpec.lean ====
/-
  The whole computation both programs perform, as one function of the five argument arrays, over the host's own
  operations (slices of the edge lists, the wrap of negative node numbers, row gathers, the scatter that sums the
  messages per node) with the per-edge arithmetic in the middle in two spellings: as the kernel regions leave it
  (`regionFn`: the message row by row) and as the host program spells it (`refineV`: 800000-long vectors of sums,
  norms, quotient and clip, broadcast along the 64 features). `region_eq` says the two middles are one array;
  everything around them is shared text and is never opened.
-/
import Idealize.ShloMosaic.PureOps.Ideal
import Idealize.ShloMosaic.PureOps.Ideal.Laws
import Idealize.ShloMosaic.Lib.ValueIdx
import Idealize.ShloMosaic.Lib.StableHlo.Run
import proofs.«125321_j34136400068849_1_alg».proof.Proof.Spec

noncomputable section

namespace Cert.Spec

open Idealize.ShloMosaic Idealize.ShloMosaic.ValueIdx

/-- The other shapes: the node table, the two edge lists, one list, one list as a row, the scalar. -/
abbrev SN64 : Shape := ⟨2, ![50000, 64]⟩
abbrev S2E : Shape := ⟨2, ![2, 800000]⟩
abbrev SE : Shape := ⟨1, ![800000]⟩
abbrev S1E : Shape := ⟨2, ![1, 800000]⟩
abbrev S0 : Shape := ⟨0, ![]⟩

/-- The side conditions of the layout operations used below, as the printed programs state them. -/
structure Side : Prop where
  sl0 : S2E.Slices ![0, 0] S1E
  sl1 : S2E.Slices ![1, 0] S1E
  c1E : S1E.ShapeCasts SE
  b_E : S0.BroadcastsInDim SE (![] : Fin 0 → Fin SE.rank)
  bE_E1 : SE.BroadcastsInDim SE1 (![0] : Fin 1 → Fin SE1.rank)
  cE_E1 : SE.ShapeCasts SE1
  b_N64 : S0.BroadcastsInDim SN64 (![] : Fin 0 → Fin SN64.rank)
  bE1_E64 : SE1.BroadcastsInDim SE64 (![0, 1] : Fin 2 → Fin SE64.rank)
  red : SE64.ReducesTo [1] SE
  hS : 0 < S0.numel

variable (h : Side) (g : GatherDims SN64 SE1 SE64) (sc : ScatterDims SN64 SE1 SE64)

/-- Integer and float arrays of a shape, at the exact reading. -/
abbrev I32 (s : Shape) : Type := IVec s 32
abbrev F32 (s : Shape) : Type := FVec Ideal s .f32

/-- Row 0 / row 1 of an edge list: the edges' first / second endpoints. -/
def row0 (idx : I32 S2E) : I32 SE := shapeCast SE (extractStridedSlice S1E ![0, 0] idx h.sl0) h.c1E
def row1 (idx : I32 S2E) : I32 SE := shapeCast SE (extractStridedSlice S1E ![1, 0] idx h.sl1) h.c1E

/-- Node numbers with the negative ones moved up by the table's length, as a column of start indices. -/
def wrap (r : I32 SE) : I32 SE1 :=
  broadcastInDim SE1 ![0] h.bE_E1
    (select (cmpi .slt r (broadcastInDim SE ![] h.b_E (constantI S0 32 0#32)))
      (addi r (broadcastInDim SE ![] h.b_E (constantI S0 32 50000#32))) r)

/-- The rows of a node table at the (wrapped) node numbers. -/
def gat (x : F32 SN64) (r : I32 SE) : F32 SE64 := Host.gather g x (wrap h r)

/-- The per-node sums of the edges' messages, each edge adding its row to its first endpoint's. -/
def scat (idx : I32 S2E) (U : F32 SE64) : F32 SN64 :=
  Host.scatterAdd (F := Ideal) sc (broadcastInDim SN64 ![] h.b_N64 (constant (F := Ideal) S0 .f32 0x00000000#32))
    (broadcastInDim SE1 ![0] h.bE_E1 (row0 h idx)) U

/-- A float word repeated along the edges. -/
def bc (w : BitVec 32) : F32 SE := broadcastInDim SE ![] h.b_E (constant (F := Ideal) S0 .f32 w)

/-- The host program's spelling of the refined weights: one entry per edge. -/
def refineV (A B : F32 SE64) (v : F32 SE) : F32 SE :=
  mulf v (addf (bc h 0x3F800000#32) (mulf (bc h 0x3DCCCCCD#32)
    (minimumf (bc h 0x3F800000#32) (maximumf (bc h 0x00000000#32)
      (mulf (addf
        (Host.divf (F := Ideal) (Host.reduceAdd (F := Ideal) (mulf A B) (constant (F := Ideal) S0 .f32 0x00000000#32) h.red h.hS)
          (mulf (maximumf (Host.sqrt (F := Ideal) (Host.reduceAdd (F := Ideal) (mulf A A) (constant (F := Ideal) S0 .f32 0x00000000#32) h.red h.hS)) (bc h 0x322BCC77#32))
                (maximumf (Host.sqrt (F := Ideal) (Host.reduceAdd (F := Ideal) (mulf B B) (constant (F := Ideal) S0 .f32 0x00000000#32) h.red h.hS)) (bc h 0x322BCC77#32))))
        (bc h 0x3F800000#32)) (bc h 0x3F000000#32))))))

/-- The host program's messages: the refined weight repeated along the features, times the column values. -/
def msgR (A B X : F32 SE64) (v : F32 SE) : F32 SE64 :=
  mulf (broadcastInDim SE64 ![0, 1] h.bE1_E64 (broadcastInDim SE1 ![0] h.bE_E1 (refineV h A B v))) X

/-- The kernel regions' messages: `regionFn` of the same arrays, the base weights as a column. -/
def msgK (A B X : F32 SE64) (v : F32 SE) : F32 SE64 :=
  regionFn A B X (shapeCast SE1 v h.cE_E1)

/-- One stage of message passing over one edge list: refine the weights from the node table `pois`, weight the rows of
    `x` at the second endpoints, sum per first endpoint. -/
def stageR (pois : F32 SN64) (idx : I32 S2E) (val : F32 SE) (x : F32 SN64) : F32 SN64 :=
  scat h sc idx (msgR h (gat h g pois (row0 h idx)) (gat h g pois (row1 h idx)) (gat h g x (row1 h idx)) val)
def stageK (pois : F32 SN64) (idx : I32 S2E) (val : F32 SE) (x : F32 SN64) : F32 SN64 :=
  scat h sc idx (msgK h (gat h g pois (row0 h idx)) (gat h g pois (row1 h idx)) (gat h g x (row1 h idx)) val)

/-- Both stages: the second edge list first, its result the column values of the first. -/
def finalR (pois : F32 SN64) (si : I32 S2E) (sv : F32 SE) (ti : I32 S2E) (tv : F32 SE) : F32 SN64 :=
  stageR h g sc pois si sv (stageR h g sc pois ti tv pois)
def finalK (pois : F32 SN64) (si : I32 S2E) (sv : F32 SE) (ti : I32 S2E) (tv : F32 SE) : F32 SN64 :=
  stageK h g sc pois si sv (stageK h g sc pois ti tv pois)

end Cert.Spec

end
-- ==== Proof.Sides.lean ====
/-
  The side conditions of the shared host operations, taken from the facts the printed programs state (and the
  generated modules prove), and the gather / scatter records of the two programs: one record each, printed twice.
-/
import proofs.«125321_j34136400068849_1_alg».proof.Proof.HostSpec
import proofs.«125321_j34136400068849_1_alg».proof.Proof.Gen.KernelIdeal
import proofs.«125321_j34136400068849_1_alg».proof.Proof.Gen.ReferenceIdeal

noncomputable section

namespace Cert.Sides

open Idealize.ShloMosaic Cert.Spec

/-- The layout operations' side conditions hold. -/
theorem side : Side where
  sl0 := Cert.KernelIdeal.Facts₀.slices_S2x800000_S1x800000_0_0
  sl1 := Cert.KernelIdeal.Facts₀.slices_S2x800000_S1x800000_1_0
  c1E := Cert.KernelIdeal.Facts₀.shapeCasts_S1x800000_S800000
  b_E := Cert.KernelIdeal.Facts₀.bcast_S_S800000
  bE_E1 := Cert.KernelIdeal.Facts₀.bcast_S800000_S800000x1_0
  cE_E1 := Cert.KernelIdeal.Facts₀.shapeCasts_S800000_S800000x1
  b_N64 := Cert.KernelIdeal.Facts₀.bcast_S_S50000x64
  bE1_E64 := Cert.ReferenceIdeal.Facts₀.bcast_S800000x1_S800000x64_0_1
  red := Cert.ReferenceIdeal.Facts₀.reducesTo_S800000x64_S800000_d1
  hS := Cert.ReferenceIdeal.Facts₀.h_S_

/-- The row gather and the summing scatter, as each program prints them. -/
abbrev gK : GatherDims SN64 SE1 SE64 := Cert.KernelIdeal.gather_S50000x64_S800000x1_S800000x64_1_0_n_n_0_1_164
abbrev scK : ScatterDims SN64 SE1 SE64 := Cert.KernelIdeal.scatter_S50000x64_S800000x1_S800000x64_1_0_0_1
abbrev gR : GatherDims SN64 SE1 SE64 := Cert.ReferenceIdeal.gather_S50000x64_S800000x1_S800000x64_1_0_n_n_0_1_164
abbrev scR : ScatterDims SN64 SE1 SE64 := Cert.ReferenceIdeal.scatter_S50000x64_S800000x1_S800000x64_1_0_0_1

/-- They are the same records. -/
theorem g_eq : gR = gK := rfl
theorem sc_eq : scR = scK := rfl

end Cert.Sides

end
-- ==== Proof.KHost.lean ====
/-
  What @main returns, as one function of the five argument arrays: the three stretches of host operations read as the
  shared operations of `HostSpec.lean` over whatever contents they start from, each region's output array as
  `regionFn` of the arrays it was entered with, and the arguments' buffers followed back to the launch memory (no host
  operation writes one, no region may change one). The result is the whole computation in the kernel regions' spelling.
-/
import proofs.«125321_j34136400068849_1_alg».proof.Proof.KRegions
import proofs.«125321_j34136400068849_1_alg».proof.Proof.KValue
import proofs.«125321_j34136400068849_1_alg».proof.Proof.Sides
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem
open Cert.Spec Cert.Sides

/-! ## The host stretches, read over any starting contents -/

section Host
variable (W : Valuation τ sig (Elt Ideal))

/-- First stretch: the rows of the node table at the second edge list's endpoints, and its weights as a column. -/
theorem host0_v8 : StableHlo.after (hostOps0 (F := Ideal)) W (Proc.devRef .tc main_v8)
    = gat side gK (W (Proc.devRef .tc main_arg0)) (row0 side (W (Proc.devRef .tc main_arg3))) := by
  after_results
  rfl
set_option maxHeartbeats 4000000 in
theorem host0_v17 : StableHlo.after (hostOps0 (F := Ideal)) W (Proc.devRef .tc main_v17)
    = gat side gK (W (Proc.devRef .tc main_arg0)) (row1 side (W (Proc.devRef .tc main_arg3))) := by
  after_results_simp
  rfl
set_option maxHeartbeats 4000000 in
theorem host0_v18 : StableHlo.after (hostOps0 (F := Ideal)) W (Proc.devRef .tc main_v18)
    = shapeCast SE1 (W (Proc.devRef .tc main_arg4)) side.cE_E1 := by
  after_results_simp
  rfl

set_option maxHeartbeats 4000000 in
/-- Second stretch: the first stage's messages summed per node; the rows of the node table, and of those sums, at the
    first edge list's endpoints; its weights as a column. -/
theorem host1_v33 : StableHlo.after (hostOps1 (F := Ideal)) W (Proc.devRef .tc main_v33)
    = gat side gK (W (Proc.devRef .tc main_arg0)) (row0 side (W (Proc.devRef .tc main_arg1))) := by
  after_results_simp
  rfl
set_option maxHeartbeats 4000000 in
theorem host1_v42 : StableHlo.after (hostOps1 (F := Ideal)) W (Proc.devRef .tc main_v42)
    = gat side gK (W (Proc.devRef .tc main_arg0)) (row1 side (W (Proc.devRef .tc main_arg1))) := by
  after_results_simp
  rfl
set_option maxHeartbeats 4000000 in
theorem host1_v51 : StableHlo.after (hostOps1 (F := Ideal)) W (Proc.devRef .tc main_v51)
    = gat side gK (scat side scK (W (Proc.devRef .tc main_arg3)) (W (Proc.devRef .tc main_v19)))
        (row1 side (W (Proc.devRef .tc main_arg1))) := by
  after_results_simp
  rfl
set_option maxHeartbeats 4000000 in
theorem host1_v52 : StableHlo.after (hostOps1 (F := Ideal)) W (Proc.devRef .tc main_v52)
    = shapeCast SE1 (W (Proc.devRef .tc main_arg2)) side.cE_E1 := by
  after_results_simp
  rfl

/-- Last stretch: the second stage's messages summed per node. -/
theorem host2_v58 : StableHlo.after (hostOps2 (F := Ideal)) W (Proc.devRef .tc main_v58)
    = scat side scK (W (Proc.devRef .tc main_arg1)) (W (Proc.devRef .tc main_v53)) := by
  after_results
  rfl

end Host

/-! ## The arguments at each boundary -/

variable (m : (ℓ : Loc nD τ sig) → Buf (Elt Ideal) ℓ)

theorem W1_arg (c : Dev nD) (r : Ref sig .tc) (h0 : r ∉ hostOps0_W) :
    W1 m c (Proc.devRef .tc r) = m ((c : Thread nD τ).loc r) :=
  (StableHlo.after_of_writes_sub hostOps0 _ hostOps0_writes h0).trans rfl
theorem W2_arg (c : Dev nD) (r : Ref sig .tc) (h0 : r ∉ hostOps0_W) (h19 : r ≠ main_v19) :
    W2 m c (Proc.devRef .tc r) = m ((c : Thread nD τ).loc r) :=
  (W2_of_ne m c r h19).trans (W1_arg m c r h0)
theorem W3_arg (c : Dev nD) (r : Ref sig .tc) (h0 : r ∉ hostOps0_W) (h1 : r ∉ hostOps1_W) (h19 : r ≠ main_v19) :
    W3 m c (Proc.devRef .tc r) = m ((c : Thread nD τ).loc r) :=
  (StableHlo.after_of_writes_sub hostOps1 _ hostOps1_writes h1).trans (W2_arg m c r h0 h19)
theorem W4_arg (c : Dev nD) (r : Ref sig .tc) (h0 : r ∉ hostOps0_W) (h1 : r ∉ hostOps1_W) (h19 : r ≠ main_v19)
    (h53 : r ≠ main_v53) : W4 m c (Proc.devRef .tc r) = m ((c : Thread nD τ).loc r) :=
  (W4_of_ne m c r h53).trans (W3_arg m c r h0 h1 h19)

/-! ## What @main returns -/

/-- Region 0's output: the second edge list's messages, from the launch memory. -/
theorem W2_v19 (c : Dev nD) : W2 m c (Proc.devRef .tc main_v19)
    = msgK side (gat side gK (m ((c : Thread nD τ).loc main_arg0)) (row0 side (m ((c : Thread nD τ).loc main_arg3))))
        (gat side gK (m ((c : Thread nD τ).loc main_arg0)) (row1 side (m ((c : Thread nD τ).loc main_arg3))))
        (gat side gK (m ((c : Thread nD τ).loc main_arg0)) (row1 side (m ((c : Thread nD τ).loc main_arg3))))
        (m ((c : Thread nD τ).loc main_arg4)) := by
  rw [W2_out, arrAt0 (V1 m) c]
  show regionFn (W1 m c (Proc.devRef .tc main_v8)) (W1 m c (Proc.devRef .tc main_v17)) (W1 m c (Proc.devRef .tc main_v17))
    (W1 m c (Proc.devRef .tc main_v18)) = _
  rw [show W1 m c (Proc.devRef .tc main_v8) = _ from host0_v8 (W0 m c),
    show W1 m c (Proc.devRef .tc main_v17) = _ from host0_v17 (W0 m c),
    show W1 m c (Proc.devRef .tc main_v18) = _ from host0_v18 (W0 m c)]
  rfl

/-- THE RESULT: both stages, in the kernel regions' spelling. -/
theorem W5_out (c : Dev nD) : W5 m c (Proc.devRef .tc main_v58)
    = finalK side gK scK (m ((c : Thread nD τ).loc main_arg0)) (m ((c : Thread nD τ).loc main_arg1))
        (m ((c : Thread nD τ).loc main_arg2)) (m ((c : Thread nD τ).loc main_arg3)) (m ((c : Thread nD τ).loc main_arg4)) := by
  rw [show W5 m c (Proc.devRef .tc main_v58) = _ from host2_v58 (W4 m c),
    W4_arg m c main_arg1 (by decide) (by decide) (by decide) (by decide),
    W4_out, arrAt1 (V3 m) c]
  show scat side scK _ (regionFn (W3 m c (Proc.devRef .tc main_v33)) (W3 m c (Proc.devRef .tc main_v42))
    (W3 m c (Proc.devRef .tc main_v51)) (W3 m c (Proc.devRef .tc main_v52))) = _
  rw [show W3 m c (Proc.devRef .tc main_v33) = _ from host1_v33 (W2 m c),
    show W3 m c (Proc.devRef .tc main_v42) = _ from host1_v42 (W2 m c),
    show W3 m c (Proc.devRef .tc main_v51) = _ from host1_v51 (W2 m c),
    show W3 m c (Proc.devRef .tc main_v52) = _ from host1_v52 (W2 m c),
    W2_v19,
    W2_arg m c main_arg0 (by decide) (by decide), W2_arg m c main_arg1 (by decide) (by decide),
    W2_arg m c main_arg2 (by decide) (by decide), W2_arg m c main_arg3 (by decide) (by decide)]
  rfl

end Cert.KernelIdeal.Hand

end
-- ==== Proof.RefValue.lean ====
/-
  The reference's result is the whole computation in the host program's spelling: its run's composed term of the
  arguments, read with the shared host operations folded back into their names.
-/
import proofs.«125321_j34136400068849_1_alg».proof.Proof.Gen.ReferenceIdeal.Run
import proofs.«125321_j34136400068849_1_alg».proof.Proof.Gen.ReferenceIdeal.Read
import proofs.«125321_j34136400068849_1_alg».proof.Proof.Sides

noncomputable section

namespace Cert.ReferenceIdeal.RefValue

open Idealize.ShloMosaic Idealize.ShloMosaic.TcCoe Idealize.SL.Sem
open Cert.ReferenceIdeal Cert.Spec Cert.Sides

/-- The run's result term is `finalR` of the five argument arrays. -/
theorem res_eq (m : (ℓ : Loc nD τ sig) → Buf (Elt Ideal) ℓ) (c : Dev nD) :
    Cert.ReferenceIdeal.Value.res_main_v117 (F := Ideal) m c
      = finalR side gR scR (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  -- the composed term is `finalR`'s own text with the shared pieces written out (and `id x` for `x` at the two clip bounds)
  unfold Cert.ReferenceIdeal.Value.res_main_v117
  rfl

end Cert.ReferenceIdeal.RefValue

end
-- ==== Proof.LibHostKeepdims.lean ====
/-
  The host program's side of a row-wise normalisation read at an index given by coordinates: the keepdims column and
  the column laid along the features, both spelt `broadcast_in_dim`; the host's sum along the features; its quotient and
  square root. General over the extents: nothing here names a kernel. (The kernel's side — the same column spelt as a
  shape cast and a trailing-axes broadcast, and the vector unit's sum — is LibKeepdims.lean.)
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibHostKeepdims

open Idealize.ShloMosaic Idealize.ShloMosaic.ValueIdx
open scoped BigOperators

section Layout
variable {α : Type}

/-- An `[a]` vector laid out as the column `[a, 1]` by a `broadcast_in_dim` along axis 0 reads, at `(p, u)`, the vector
    at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- A column `[a, 1]` repeated along `b` features by a `broadcast_in_dim` along axes 0 and 1 reads, at `(p, c)`, the
    column's entry of row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- At the ideal values the host's f32 sum along the second axis of an `[a, b]` array is, at row `p`, the initial value
    plus the sum over the `b` entries of that row: the index the reduction inserts coordinate `k` into, over `p`, is
    `(p, k)`. -/
theorem hostLaneSum_apply {a b : ℕ} (src : FVec Ideal ⟨2, ![a, b]⟩ .f32) (init : (⟨0, ![]⟩ : Shape).Idx → Ideal .f32)
    (h' : (⟨2, ![a, b]⟩ : Shape).ReducesTo [1] ⟨1, ![a]⟩) (hr : (⟨2, ![a, b]⟩ : Shape).Reduces [1] ⟨1, ![a]⟩)
    (hu : 0 < (⟨0, ![]⟩ : Shape).numel) (p : Fin a) :
    Host.reduceAdd (F := Ideal) src init h' hu (ix1 p) = init (Shape.Idx.first hu) + ∑ k : Fin b, src (ix2 p k) := by
  simp only [Host.reduceAdd, Ideal.hostReduceAdd_def]
  rw [Ideal.hostReduceAdd_single h' hr]
  refine congrArg (_ + ·) (Finset.sum_congr rfl fun k _ => ?_)
  exact congrArg src (funext fun d => Fin.ext (by match d with | ⟨0, _⟩ => rfl | ⟨1, _⟩ => rfl))

/-- The host's quotient at an index is the ideal quotient of the elements. -/
theorem hostDivf_apply {s : Shape} {φ : FTy} (a b : FVec Ideal s φ) (i : s.Idx) :
    Host.divf (F := Ideal) a b i = Ideal.div (a i) (b i) := rfl

/-- The host's square root at an index is the ideal square root of the element. -/
theorem hostSqrt_apply {s : Shape} {φ : FTy} (a : FVec Ideal s φ) (i : s.Idx) :
    Host.sqrt (F := Ideal) a i = Ideal.sqrt (a i) := rfl

end Cert.LibHostKeepdims

end
-- ==== Proof.RegionEq.lean ====
/-
  The two spellings of the messages are one array. At entry (e, q) the host program's spelling reads: the base weight
  of edge e times (1 + α · clip), the clip of ((Σ_k A(e,k)·B(e,k)) / (max(√Σ_k A(e,k)², ε) · max(√Σ_k B(e,k)², ε)) + 1) · ½,
  repeated along q, times X(e, q) — which is `msg` of rows e of A and B, X(e, q) and the weight, the kernel regions'
  spelling read at the same entry. No law of arithmetic is used: the operations and their order are the same.
-/
import proofs.«125321_j34136400068849_1_alg».proof.Proof.HostSpec
import proofs.«125321_j34136400068849_1_alg».proof.Proof.LibKeepdims
import proofs.«125321_j34136400068849_1_alg».proof.Proof.LibHostKeepdims
import Idealize.ShloMosaic.Lib.ValueLayout
import Idealize.ShloMosaic.Lib.Pipeline.Value

noncomputable section

namespace Cert.Spec

open Idealize.ShloMosaic Idealize.ShloMosaic.ValueIdx
open Cert.LibKeepdims Cert.LibHostKeepdims

variable (h : Side) (g : GatherDims SN64 SE1 SE64) (sc : ScatterDims SN64 SE1 SE64)

/-- A float word repeated along the edges reads the word's value everywhere. -/
theorem bc_apply (w : BitVec 32) (j : SE.Idx) : bc h w j = Ideal.ofBits .f32 w := rfl

/-- The per-edge arrays' sum along the features, as the kernel-side reading of a sum names it. -/
theorem reduces_SE64_SE : SE64.Reduces [1] SE := by decide

/-- The host program's refined weight of edge `e` is `refine` of rows `e` of the two arrays and the edge's base weight:
    the entrywise operations read through the index, the three sums along the features are the three `dot`s (their
    initial value the zero word, which adds nothing), and what is left is `refine`'s own tree of operations. -/
theorem refineV_apply (A B : F32 SE64) (v : F32 SE) (e : Fin 800000) :
    refineV h A B v (ix1 e) = refine (fun k => A (ix2 e k)) (fun k => B (ix2 e k)) (v (ix1 e)) := by
  unfold refineV
  rw [mulf_apply, addf_apply, mulf_apply, minimumf_apply, maximumf_apply, mulf_apply, addf_apply, hostDivf_apply,
    mulf_apply, maximumf_apply, maximumf_apply, hostSqrt_apply, hostSqrt_apply]
  rw [hostLaneSum_apply (mulf A B) _ h.red reduces_SE64_SE h.hS e, hostLaneSum_apply (mulf A A) _ h.red reduces_SE64_SE h.hS e,
    hostLaneSum_apply (mulf B B) _ h.red reduces_SE64_SE h.hS e]
  rw [constant_apply, Ideal.ofBits_zero_f32, zero_add, zero_add, zero_add]
  rfl

/-- The kernel regions' messages are the host program's. -/
theorem region_eq (A B X : F32 SE64) (v : F32 SE) : msgK h A B X v = msgR h A B X v := by
  funext i
  obtain ⟨e, q, rfl⟩ : ∃ (e : Fin 800000) (q : Fin 64), i = ix2 e q := ⟨i 0, i 1, eq_ix2 i⟩
  unfold msgK msgR
  -- left: the message of rows e, the base weights' column read at (e, 0); right: the product at (e, q), the refined
  -- weight's column laid along the features
  rw [regionFn_apply, shapeCast_a_a1_apply, mulf_apply, broadcastInDim_a1_ab_apply, broadcastInDim_a_a1_apply,
    refineV_apply]
  rfl

/-- So one stage, and the two stages composed, are the same function of the arguments in both spellings. -/
theorem stage_eq (pois : F32 SN64) (idx : I32 S2E) (val : F32 SE) (x : F32 SN64) :
    stageK h g sc pois idx val x = stageR h g sc pois idx val x := by
  unfold stageK stageR; rw [region_eq]

theorem final_eq (pois : F32 SN64) (si : I32 S2E) (sv : F32 SE) (ti : I32 S2E) (tv : F32 SE) :
    finalK h g sc pois si sv ti tv = finalR h g sc pois si sv ti tv := by
  unfold finalK finalR; rw [stage_eq, stage_eq]

end Cert.Spec

end
-- ==== Proof.lean ====
/-
  Two stages of weighted message passing over a graph of 50000 nodes with 64 features and two lists of 800000 directed
  edges, against its plain reference. For one edge list (first endpoints i_e, second endpoints j_e, weights w_e), a node
  table P and a table x of column values, every edge e sends the message
      w_e · (1 + α · clip₀¹((cos(P_{i_e}, P_{j_e}) + 1) · ½)) · x_{j_e}        (a row of 64 features)
  to node i_e, cos the cosine similarity with each norm floored at ε, and a stage returns the per-node sums of the
  messages. The program runs the stage on the second edge list with x = P, then on the first edge list with x the
  first stage's result.

  The kernel program computes the messages of a stage in a kernel region over 100 grid points, point t handling edges
  8000·t … 8000·t + 7999: the gathered rows P_{i_e}, P_{j_e}, x_{j_e} and the weights (as a column) arrive as four
  whole-array windows, the body's arithmetic is the displayed formula row by row, and block t of the output array is
  written back. Gathers, the negative-index wrap and the summing scatter are host operations around the two regions —
  the very operations, in the same order with the same literal words, that the reference applies, and the reference
  spells the per-edge arithmetic with the same operations on 800000-long vectors. So at the exact reading the two
  results are ONE function of the arguments, entry by entry, with no law of arithmetic needed beyond 0 + s = s for the
  sums' initial value; the precondition is not used.

  Frames. The reference is host operations only: its frame is its run with the result dropped. The kernel program's
  @main is five items (host operations, region 0, host operations, region 1, host operations); its run is the
  several-region launch over per-region proof data, with every unscoped buffer named at each boundary, so that the frame
  (the arguments end as launched: no item writes one) and the value of the result are both read off one theorem, at the
  word-level instance and at the exact one alike. In region 0 the first stage passes ONE array (the rows P_{j_e}) to two
  windows; at the region's entry that array's buffer is split into two half shares, one per window, and joined at exit.
  The idealization rewrote nothing, so there is nothing to preserve.
-/
import proofs.«125321_j34136400068849_1_alg».proof.Defs
import proofs.«125321_j34136400068849_1_alg».proof.Proof.Gen.Kernel
import proofs.«125321_j34136400068849_1_alg».proof.Proof.Gen.KernelIdeal
import proofs.«125321_j34136400068849_1_alg».proof.Proof.Gen.ReferenceIdeal
import proofs.«125321_j34136400068849_1_alg».proof.Proof.Gen.Pre_finite_inputs
import proofs.«125321_j34136400068849_1_alg».proof.Proof.BRun
import proofs.«125321_j34136400068849_1_alg».proof.Proof.KRun
import proofs.«125321_j34136400068849_1_alg».proof.Proof.KHost
import proofs.«125321_j34136400068849_1_alg».proof.Proof.RefValue
import proofs.«125321_j34136400068849_1_alg».proof.Proof.RegionEq
import Idealize.ShloMosaic.Adequacy
import Idealize.ShloMosaic.Init

noncomputable section

namespace Cert.Proof

open Idealize.ShloMosaic Idealize.SL.Sem

/-- The word-level kernel program runs and leaves its arguments as launched: its run with the result dropped. -/
theorem frame_k : Cert.frame_Kernel := fun m ρ _ =>
  (θ_run Cert.Kernel.defs _ _).mono (fun _ h c => (h c).2) (Cert.Kernel.Hand.run_value (F := Bits) m ρ)

/-- The same program at the exact reading. -/
theorem frame_ki : Cert.frame_KernelIdeal := fun m ρ _ =>
  (θ_run Cert.KernelIdeal.defs _ _).mono (fun _ h c => (h c).2) (Cert.KernelIdeal.Hand.run_value (F := Ideal) m ρ)

/-- The reference is host operations only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the exact reading both programs end with the two-stage sum of messages of the same five arrays: the kernel
    program's result in the regions' spelling, the reference's in the host program's, one array by `final_eq`. -/
theorem algebraic : Cert.algebraic_KernelIdeal_ReferenceIdeal := by
  intro m ρ m' ρ' _ hagree
  refine ⟨fun c => Cert.Spec.finalK Cert.Sides.side Cert.Sides.gK Cert.Sides.scK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.Hand.W5_out m c), (h c).2⟩)
      (Cert.KernelIdeal.Hand.run_value (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.res_eq, Cert.Sides.g_eq, Cert.Sides.sc_eq, ← Cert.Spec.final_eq,
      (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
